-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_arg0)) (v3 : (c : Dev Cert.KernelIdeal.nD) → Buf (Elt Ideal) ((c.tc : Thread Cert.KernelIdeal.nD Cert.KernelIdeal.τ).loc Cert.KernelIdeal.main_v3_1)) (v4 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_arg0) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_v4_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x256 .f32) (main_arg3 : FVec F S256 .f32) (main_arg4 : FVec F S256x128 .f32) (main_arg5 : FVec F S128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S10000x128 : Shape := ⟨2, ![10000, 128]⟩
abbrev S400x10000 : Shape := ⟨2, ![400, 10000]⟩
abbrev S400x256 : Shape := ⟨2, ![400, 256]⟩
abbrev S400x128 : Shape := ⟨2, ![400, 128]⟩
abbrev S400 : Shape := ⟨1, ![400]⟩
abbrev S400x1 : Shape := ⟨2, ![400, 1]⟩

abbrev nBuf : Space → Nat
  | .hbm => 14
  | .vmem => 22
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x256, .f32⟩
  | .hbm, ⟨7, _⟩ => ⟨S1x128, .f32⟩
  | .hbm, ⟨8, _⟩ => ⟨S10000x256, .bf16⟩
  | .hbm, ⟨9, _⟩ => ⟨S10000x256, .f32⟩
  | .hbm, ⟨10, _⟩ => ⟨S10000x256, .f32⟩
  | .hbm, ⟨11, _⟩ => ⟨S10000x128, .bf16⟩
  | .hbm, ⟨12, _⟩ => ⟨S10000x128, .f32⟩
  | .hbm, ⟨13, _⟩ => ⟨S10000x128, .f32⟩
  | .local _ .vmem, ⟨0, _⟩ => ⟨S10000x256, .f32⟩
  | .local _ .vmem, ⟨1, _⟩ => ⟨S256x256, .f32⟩
  | .local _ .vmem, ⟨2, _⟩ => ⟨S10000x256, .bf16⟩
  | .local _ .vmem, ⟨3, _⟩ => ⟨S400x10000, .f32⟩
  | .local _ .vmem, ⟨4, _⟩ => ⟨S400x10000, .f32⟩
  | .local _ .vmem, ⟨5, _⟩ => ⟨S10000x256, .bf16⟩
  | .local _ .vmem, ⟨6, _⟩ => ⟨S1x256, .f32⟩
  | .local _ .vmem, ⟨7, _⟩ => ⟨S256x128, .f32⟩
  | .local _ .vmem, ⟨8, _⟩ => ⟨S400x256, .f32⟩
  | .local _ .vmem, ⟨9, _⟩ => ⟨S400x256, .f32⟩
  | .local _ .vmem, ⟨10, _⟩ => ⟨S400x256, .f32⟩
  | .local _ .vmem, ⟨11, _⟩ => ⟨S400x256, .f32⟩
  | .local _ .vmem, ⟨12, _⟩ => ⟨S400x128, .bf16⟩
  | .local _ .vmem, ⟨13, _⟩ => ⟨S400x128, .bf16⟩
  | .local _ .vmem, ⟨14, _⟩ => ⟨S400x10000, .f32⟩
  | .local _ .vmem, ⟨15, _⟩ => ⟨S400x10000, .f32⟩
  | .local _ .vmem, ⟨16, _⟩ => ⟨S10000x128, .bf16⟩
  | .local _ .vmem, ⟨17, _⟩ => ⟨S1x128, .f32⟩
  | .local _ .vmem, ⟨18, _⟩ => ⟨S400x128, .f32⟩
  | .local _ .vmem, ⟨19, _⟩ => ⟨S400x128, .f32⟩
  | .local _ .vmem, ⟨20, _⟩ => ⟨S400x128, .f32⟩
  | .local _ .vmem, ⟨21, _⟩ => ⟨S400x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S256_S1x256 : S256.ShapeCasts S1x256
  shapeCasts_S128_S1x128 : S128.ShapeCasts S1x128
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x256_S400x256_0_0 : ∀ a, (![0, 0] : Fin 2 → Nat) a + S400x256.size a ≤ S400x256.size a
  h_S400x256 : 0 < S400x256.numel
  inb_S256x128_S256x128_0_0 : ∀ a, (![0, 0] : Fin 2 → Nat) a + S256x128.size a ≤ S256x128.size a
  h_S256x128 : 0 < S256x128.numel
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  dot_S400x256_S256x128_S400x128_1_0_0_1_n_n_wf : DotDims.WF S400x256 S256x128 S400x128 [1] [0] [0] [1] [] []
  dot_S400x10000_S10000x128_S400x128_1_0_0_1_n_n_wf : DotDims.WF S400x10000 S10000x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x256.size a ≤ S10000x256.size a
  hwx1_4 : ∀ i : grid1.Coords, EltTy.bits .f32 = 32 ∨ (Rect.block (s := S10000x256) S400x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x256.size a ≤ S10000x256.size a
  hwx1_5 : ∀ i : grid1.Coords, EltTy.bits .f32 = 32 ∨ (Rect.block (s := S10000x256) S400x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .bf16 = 32 ∨ (Rect.block (s := S10000x128) S400x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .f32 = 32 ∨ (Rect.block (s := S10000x128) S400x128.size (cc2_transform_4 i) (hinb2_4 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S400x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S400x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_2) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_2) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4_0) S400x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4_1) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S_ : Shape := ⟨0, ![]⟩
abbrev S10000x128 : Shape := ⟨2, ![10000, 128]⟩
abbrev S1x128 : Shape := ⟨2, ![1, 128]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S10000x256, .f32⟩
  | .hbm, ⟨7, _⟩ => ⟨S10000x256, .f32⟩
  | .hbm, ⟨8, _⟩ => ⟨S1x256, .f32⟩
  | .hbm, ⟨9, _⟩ => ⟨S10000x256, .f32⟩
  | .hbm, ⟨10, _⟩ => ⟨S10000x256, .f32⟩
  | .hbm, ⟨11, _⟩ => ⟨S_, .f32⟩
  | .hbm, ⟨12, _⟩ => ⟨S10000x256, .f32⟩
  | .hbm, ⟨13, _⟩ => ⟨S10000x256, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x128, .f32⟩
  | .hbm, ⟨33, _⟩ => ⟨S10000x128, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KRun.lean ====
/-
  The kernel program's run with its results named.

  The program is a stretch of host operations followed by three pipelined regions. Its buffer contents at each
  boundary are a fold from the launch memory: after the host stretch, after the first region (its output array at
  what the region's write-backs leave, every other buffer kept), after the second, after the third. Every weakly
  fair execution from a memory with zero counters terminates without a fault, and in the final state every
  buffer that outlives the program holds the last boundary's contents: in particular each of the five results,
  and each of the six arguments, which no host operation and no region writes.
-/
import proofs.«113547_g53876069761532_cont_9to1_m_356_27_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the
    contents the fold through the program gives it at the last boundary, and the arguments as launched. -/
theorem run_results : θ_run defs (onTc (τ := τ) (main (F := F))) ⟨m, fun _ => 0, ρ⟩ (fun r => ∀ c : Dev nD,
      r.2.mem ((c.tc : Thread nD τ).loc main_v3_0) = W4 m ρ c (Proc.devRef .tc main_v3_0)
      ∧ r.2.mem ((c.tc : Thread nD τ).loc main_v4_0) = W4 m ρ c (Proc.devRef .tc main_v4_0)
      ∧ r.2.mem ((c.tc : Thread nD τ).loc main_arg0) = W4 m ρ c (Proc.devRef .tc main_arg0)
      ∧ r.2.mem ((c.tc : Thread nD τ).loc main_v3_1) = W4 m ρ c (Proc.devRef .tc main_v3_1)
      ∧ r.2.mem ((c.tc : Thread nD τ).loc main_v4_1) = W4 m ρ c (Proc.devRef .tc main_v4_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3_0 (by decide))),
       (h c _ (mem_uc main_v4_0 (by decide))),
       (h c _ (mem_uc main_arg0 (by decide))),
       (h c _ (mem_uc main_v3_1 (by decide))),
       (h c _ (mem_uc main_v4_1 (by decide))),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.KVal

end
-- ==== Proof.Spec.lean ====
/-
  The mathematics of a two-layer graph convolution, stated once over the extended reals and over literal
  shapes, for any number of rows of the adjacency operand:

    xw1  = x · W1                      hw2  = relu(pre1) · W2
    pre1 = adj · xw1 + b1              pre2 = adj · hw2 + b2
    out  = log_softmax(pre2) along each row

  A matrix is a function of a rank-2 index, a vector of a rank-1 index; every definition reads its operands at
  indices built from coordinates, so that a row of a result depends on the same row of the left operand only
  (`mm_rows`, `addRow_rows`, … : what lets a block of rows be computed from the block of rows).
  The row-wise log-softmax is stated in its two arrangements: `a - (log S + m)` and `(a - m) - log S`, with
  `m` the row's maximum and `S` the row's sum of `exp (a - m)`.
-/
import Idealize.ShloMosaic.PureOps.Ideal
import Idealize.ShloMosaic.Lib.ValueIdx

noncomputable section

namespace Cert.GcnSpec

open Idealize.ShloMosaic Idealize.ShloMosaic.ValueIdx

/-- An `a × b` matrix of extended reals, as a function of its rank-2 index. -/
abbrev Mat (a b : Nat) : Type := (⟨2, ![a, b]⟩ : Shape).Idx → EReal
/-- A vector of `a` extended reals, as a function of its rank-1 index. -/
abbrev Vc (a : Nat) : Type := (⟨1, ![a]⟩ : Shape).Idx → EReal

variable {M K N : Nat}

/-- The matrix product: entry `(i, j)` is `∑ c, A (i, c) * B (c, j)`. -/
def mm (A : Mat M K) (B : Mat K N) : Mat M N := fun j => ∑ c : Fin K, A (ix2 (j 0) c) * B (ix2 c (j 1))
/-- A vector added to every row. -/
def addRow (A : Mat M N) (b : Vc N) : Mat M N := fun j => A j + b (ix1 (j 1))
/-- The positive part, entry by entry. -/
def relu (A : Mat M N) : Mat M N := fun j => max (A j) 0
/-- The maximum of row `i` (the fold of `max` from `⊥`). -/
def rowMax (A : Mat M N) (i : Fin M) : EReal := (Finset.univ : Finset (Fin N)).fold max ⊥ (fun k => A (ix2 i k))
/-- The sum over row `i` of `exp (a - m)`, `m` the row's maximum. -/
def expSum (A : Mat M N) (i : Fin M) : EReal := ∑ k : Fin N, Ideal.exp (A (ix2 i k) - rowMax A i)
/-- Row-wise log-softmax, arranged `a - (log S + m)`. -/
def logSoftmaxK (A : Mat M N) : Mat M N := fun j => A j - (Ideal.log (expSum A (j 0)) + rowMax A (j 0))
/-- Row-wise log-softmax, arranged `(a - m) - log S`. -/
def logSoftmaxR (A : Mat M N) : Mat M N := fun j => (A j - rowMax A (j 0)) - Ideal.log (expSum A (j 0))

theorem mm_ix2 (A : Mat M K) (B : Mat K N) (a : Fin M) (b : Fin N) :
    mm A B (ix2 a b) = ∑ c : Fin K, A (ix2 a c) * B (ix2 c b) := rfl
theorem addRow_ix2 (A : Mat M N) (b : Vc N) (p : Fin M) (q : Fin N) : addRow A b (ix2 p q) = A (ix2 p q) + b (ix1 q) := rfl
theorem relu_ix2 (A : Mat M N) (p : Fin M) (q : Fin N) : relu A (ix2 p q) = max (A (ix2 p q)) 0 := rfl
theorem logSoftmaxK_ix2 (A : Mat M N) (p : Fin M) (q : Fin N) :
    logSoftmaxK A (ix2 p q) = A (ix2 p q) - (Ideal.log (expSum A p) + rowMax A p) := rfl
theorem logSoftmaxR_ix2 (A : Mat M N) (p : Fin M) (q : Fin N) :
    logSoftmaxR A (ix2 p q) = (A (ix2 p q) - rowMax A p) - Ideal.log (expSum A p) := rfl

/-! ## The two layers, for any number `M` of adjacency rows -/

/-- The first layer before its activation: `adj · xw1 + b1`. -/
def pre1 (adj : Mat M 10000) (xw1 : Mat 10000 256) (b1 : Vc 256) : Mat M 256 := addRow (mm adj xw1) b1
/-- The first layer: `relu (adj · xw1 + b1)`. -/
def h1 (adj : Mat M 10000) (xw1 : Mat 10000 256) (b1 : Vc 256) : Mat M 256 := relu (pre1 adj xw1 b1)
/-- The first layer times the second weight matrix. -/
def hw2 (adj : Mat M 10000) (xw1 : Mat 10000 256) (b1 : Vc 256) (W2 : Mat 256 128) : Mat M 128 := mm (h1 adj xw1 b1) W2
/-- The second layer before the log-softmax: `adj · hw2 + b2`. -/
def pre2 (adj : Mat M 10000) (hw : Mat 10000 128) (b2 : Vc 128) : Mat M 128 := addRow (mm adj hw) b2

/-- The whole network's second pre-activation as a function of the six arguments. -/
def net2 (x : Mat 10000 256) (adj : Mat 10000 10000) (W1 : Mat 256 256) (b1 : Vc 256) (W2 : Mat 256 128) (b2 : Vc 128) :
    Mat 10000 128 := pre2 adj (hw2 adj (mm x W1) b1 W2) b2

/-! ## A row of a result depends on that row of the left operand -/

/-- Entry `(i, j)` of a product reads row `i` of the left factor only. -/
theorem mm_rows {M' : Nat} (A : Mat M K) (A' : Mat M' K) (B : Mat K N) (i : Fin M) (i' : Fin M')
    (h : ∀ c : Fin K, A (ix2 i c) = A' (ix2 i' c)) (q : Fin N) : mm A B (ix2 i q) = mm A' B (ix2 i' q) := by
  rw [mm_ix2, mm_ix2]; exact Finset.sum_congr rfl fun c _ => by rw [h c]

end Cert.GcnSpec

end
-- ==== Proof.LibPlain.lean ====
/-
  A plain matrix product and a row maximum, read at coordinates, at the extended reals.

  A product of an `M × K` by a `K × N` matrix with the standard dimension numbers — contract the left operand's
  axis 1 with the right operand's axis 0, no batch axis — is, at `(a, b)`, the sum over `c` of the entries
  `(a, c)` and `(c, b)`: for a product accumulated into a zero array and for the host's product alike, whatever
  record carries the dimension numbers, as long as it is the standard one.
  The maximum over the last axis of an `a × b` array, started from `-∞`, is at row `p` the fold of `max` from `⊥`
  over the row's entries.
-/
import Idealize.ShloMosaic.Lib.StackMember
import Idealize.ShloMosaic.Lib.KernelVsHost
import Idealize.ShloMosaic.PureOps.Ideal.Laws
import Idealize.ShloMosaic.Lib.ValueIdx

noncomputable section

namespace Cert.LibPlain

open Idealize.ShloMosaic Idealize.ShloMosaic.ValueIdx

/-- The host's product with the standard dimension numbers, at `(a, b)`: `∑ c, A (a, c) * B (c, b)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

/-- A product accumulated into the zero array, with the standard dimension numbers, at `(a, b)`: the same sum
    (`0 + s = s` holds for every extended real `s`). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b)
      = ∑ c : Fin K, A (ix2 a c) * B (ix2 c b) := by
  rw [matmul_zero_eq_dotGeneral]
  exact dotGeneral_apply d hd prec A B a b

/-- The bit pattern of `-∞` in f32 denotes `⊥`. -/
theorem ofBits_neg_inf_f32 : Ideal.ofBits .f32 0xFF800000#32 = ⊥ := by simp [Ideal.ofBits, Ideal.ieee]

/-- The maximum over the last axis of an `a × b` array from `-∞`, at row `p`: the fold of `max` from `⊥` over the
    entries `(p, k)` of the row. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ (fun k => src (ix2 p k)) := by
  rw [Ideal.multiReduction_maximumf_single src 0xFF800000#32 h hφ hacc (ix1 p)]
  show (Finset.univ : Finset (Fin b)).fold max (Ideal.ofBits .f32 0xFF800000#32) _ = _
  rw [ofBits_neg_inf_f32]
  refine congrArg (Finset.fold max ⊥ · Finset.univ) (funext fun k => ?_)
  exact congrArg src (funext fun ax => Fin.ext (by
    match ax with
    | ⟨0, _⟩ => rfl
    | ⟨1, _⟩ => rfl))

end Cert.LibPlain

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibColumns.lean ====
/-
  Columns of a two-axis array.

  Three readings at explicit coordinates `(p, k)` (row `p`, column `k`), for arrays of any height `a`:
  a single column cut out of an `[a, b]` array and flattened to an `[a]` vector is the array's column; nine `[a, 1]`
  columns laid side by side form an `[a, 9]` array whose column `j` is the `j`-th of them; and the sum of an `[a, b]` array
  along its rows is, at row `p`, the sum over the `b` columns of the entries of that row.
-/
import Idealize.ShloMosaic.Lib.Pipeline.Value
import Idealize.ShloMosaic.Lib.ValueIdx
import Idealize.ShloMosaic.Lib.ValueLayout
import Idealize.ShloMosaic.PureOps.Ideal.Laws

namespace Cert.LibColumns

open Idealize.ShloMosaic Idealize.ShloMosaic.ValueIdx

variable {α : Type}

/-- Column `k` of an `[a, b]` array, cut out as an `[a, 1]` slice at column offset `o = k` and flattened to an `[a]`
    vector, reads at row `p` the array's entry `(p, k)`. -/
theorem col_apply {a b : ℕ} (o : ℕ) (v : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (p : Fin a) (k : Fin b) (hk : k.val = o) :
    shapeCast ⟨1, ![a]⟩ (extractStridedSlice ⟨2, ![a, 1]⟩ ![0, o] v hs) hc (ix1 p) = v (ix2 p k) :=
  (shapeCast_apply _ hc (ix1 p) (ix2 p (0 : Fin 1)) (by
    rw [Shape.rowMajor_val_two, Shape.rowMajor_val_one]
    show p.val * 1 + 0 = p.val
    omega)).trans (slice2_axis1_apply o v hs p (0 : Fin 1) k (by show k.val = o + 0; omega))

/-- One of nine things, chosen by a number below nine. -/
def pick9 {β : Type} (c0 c1 c2 c3 c4 c5 c6 c7 c8 : β) (j : Fin 9) : β :=
  match j with
  | ⟨0, _⟩ => c0
  | ⟨1, _⟩ => c1
  | ⟨2, _⟩ => c2
  | ⟨3, _⟩ => c3
  | ⟨4, _⟩ => c4
  | ⟨5, _⟩ => c5
  | ⟨6, _⟩ => c6
  | ⟨7, _⟩ => c7
  | ⟨8, _⟩ => c8
  | ⟨_ + 9, h⟩ => absurd h (Nat.not_lt.2 (Nat.le_add_left _ _))

/-- Choosing among nine functions and applying the chosen one is choosing among the nine values. -/
theorem pick9_app {β γ : Type} (c0 c1 c2 c3 c4 c5 c6 c7 c8 : β → γ) (j : Fin 9) (x : β) :
    pick9 c0 c1 c2 c3 c4 c5 c6 c7 c8 j x = pick9 (c0 x) (c1 x) (c2 x) (c3 x) (c4 x) (c5 x) (c6 x) (c7 x) (c8 x) j := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨n + 9, hn⟩ => exact absurd hn (Nat.not_lt.2 (Nat.le_add_left _ _))

/-- Two choices among nine agree when the nine things agree one by one. -/
theorem pick9_congr {β : Type} {a0 a1 a2 a3 a4 a5 a6 a7 a8 b0 b1 b2 b3 b4 b5 b6 b7 b8 : β}
    (h0 : a0 = b0) (h1 : a1 = b1) (h2 : a2 = b2) (h3 : a3 = b3) (h4 : a4 = b4) (h5 : a5 = b5) (h6 : a6 = b6)
    (h7 : a7 = b7) (h8 : a8 = b8) (j : Fin 9) :
    pick9 a0 a1 a2 a3 a4 a5 a6 a7 a8 j = pick9 b0 b1 b2 b3 b4 b5 b6 b7 b8 j := by
  rw [h0, h1, h2, h3, h4, h5, h6, h7, h8]

/-- Nine `[a, 1]` columns as the list of pieces a concatenation takes. -/
abbrev cols9 {a : ℕ} (c0 c1 c2 c3 c4 c5 c6 c7 c8 : (⟨2, ![a, 1]⟩ : Shape).Idx → α) : List ((s : Shape) × (s.Idx → α)) :=
  [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩,
    ⟨⟨2, ![a, 1]⟩, c5⟩, ⟨⟨2, ![a, 1]⟩, c6⟩, ⟨⟨2, ![a, 1]⟩, c7⟩, ⟨⟨2, ![a, 1]⟩, c8⟩]

/-- Nine `[a, 1]` columns joined along the column axis: the entry `(p, j)` of the `[a, 9]` result is the entry `(p, 0)`
    of the `j`-th column (the columns before it take up exactly `j` positions of the joined axis). -/
theorem concat9_apply {a : ℕ} (c0 c1 c2 c3 c4 c5 c6 c7 c8 : (⟨2, ![a, 1]⟩ : Shape).Idx → α)
    (h : Shape.Concatenates ((cols9 c0 c1 c2 c3 c4 c5 c6 c7 c8).map (·.1)) ⟨2, ![a, 9]⟩ 1)
    (p : Fin a) (j : Fin 9) :
    concatenate ⟨2, ![a, 9]⟩ 1 (cols9 c0 c1 c2 c3 c4 c5 c6 c7 c8) h (ix2 p j)
      = pick9 c0 c1 c2 c3 c4 c5 c6 c7 c8 j (ix2 p (0 : Fin 1)) := by
  have hi : ∀ (j : Fin 9) (b : Fin 2), b.cast (rfl : (2 : ℕ) = 2) ≠ (1 : Fin 2) →
      ((ix2 p (0 : Fin 1) : (⟨2, ![a, 1]⟩ : Shape).Idx) b).val
        = ((ix2 p j : (⟨2, ![a, 9]⟩ : Shape).Idx) (b.cast rfl)).val := by
    intro j b hb
    match b with
    | ⟨0, _⟩ => rfl
    | ⟨1, _⟩ => exact absurd rfl hb
  match j with
  | ⟨0, hj⟩ =>
    exact concatenate_apply_piece (t := ⟨2, ![a, 9]⟩) (1 : Fin 2) (cols9 c0 c1 c2 c3 c4 c5 c6 c7 c8) h (ix2 p (⟨0, hj⟩ : Fin 9)) 0
      (by show (0 : ℕ) < 9; decide) ⟨2, ![a, 1]⟩ c0 rfl rfl 0 rfl (ix2 p (0 : Fin 1)) (hi _) rfl
  | ⟨1, hj⟩ =>
    exact concatenate_apply_piece (t := ⟨2, ![a, 9]⟩) (1 : Fin 2) (cols9 c0 c1 c2 c3 c4 c5 c6 c7 c8) h (ix2 p (⟨1, hj⟩ : Fin 9)) 1
      (by show (1 : ℕ) < 9; decide) ⟨2, ![a, 1]⟩ c1 rfl rfl 1 rfl (ix2 p (0 : Fin 1)) (hi _) rfl
  | ⟨2, hj⟩ =>
    exact concatenate_apply_piece (t := ⟨2, ![a, 9]⟩) (1 : Fin 2) (cols9 c0 c1 c2 c3 c4 c5 c6 c7 c8) h (ix2 p (⟨2, hj⟩ : Fin 9)) 2
      (by show (2 : ℕ) < 9; decide) ⟨2, ![a, 1]⟩ c2 rfl rfl 2 rfl (ix2 p (0 : Fin 1)) (hi _) rfl
  | ⟨3, hj⟩ =>
    exact concatenate_apply_piece (t := ⟨2, ![a, 9]⟩) (1 : Fin 2) (cols9 c0 c1 c2 c3 c4 c5 c6 c7 c8) h (ix2 p (⟨3, hj⟩ : Fin 9)) 3
      (by show (3 : ℕ) < 9; decide) ⟨2, ![a, 1]⟩ c3 rfl rfl 3 rfl (ix2 p (0 : Fin 1)) (hi _) rfl
  | ⟨4, hj⟩ =>
    exact concatenate_apply_piece (t := ⟨2, ![a, 9]⟩) (1 : Fin 2) (cols9 c0 c1 c2 c3 c4 c5 c6 c7 c8) h (ix2 p (⟨4, hj⟩ : Fin 9)) 4
      (by show (4 : ℕ) < 9; decide) ⟨2, ![a, 1]⟩ c4 rfl rfl 4 rfl (ix2 p (0 : Fin 1)) (hi _) rfl
  | ⟨5, hj⟩ =>
    exact concatenate_apply_piece (t := ⟨2, ![a, 9]⟩) (1 : Fin 2) (cols9 c0 c1 c2 c3 c4 c5 c6 c7 c8) h (ix2 p (⟨5, hj⟩ : Fin 9)) 5
      (by show (5 : ℕ) < 9; decide) ⟨2, ![a, 1]⟩ c5 rfl rfl 5 rfl (ix2 p (0 : Fin 1)) (hi _) rfl
  | ⟨6, hj⟩ =>
    exact concatenate_apply_piece (t := ⟨2, ![a, 9]⟩) (1 : Fin 2) (cols9 c0 c1 c2 c3 c4 c5 c6 c7 c8) h (ix2 p (⟨6, hj⟩ : Fin 9)) 6
      (by show (6 : ℕ) < 9; decide) ⟨2, ![a, 1]⟩ c6 rfl rfl 6 rfl (ix2 p (0 : Fin 1)) (hi _) rfl
  | ⟨7, hj⟩ =>
    exact concatenate_apply_piece (t := ⟨2, ![a, 9]⟩) (1 : Fin 2) (cols9 c0 c1 c2 c3 c4 c5 c6 c7 c8) h (ix2 p (⟨7, hj⟩ : Fin 9)) 7
      (by show (7 : ℕ) < 9; decide) ⟨2, ![a, 1]⟩ c7 rfl rfl 7 rfl (ix2 p (0 : Fin 1)) (hi _) rfl
  | ⟨8, hj⟩ =>
    exact concatenate_apply_piece (t := ⟨2, ![a, 9]⟩) (1 : Fin 2) (cols9 c0 c1 c2 c3 c4 c5 c6 c7 c8) h (ix2 p (⟨8, hj⟩ : Fin 9)) 8
      (by show (8 : ℕ) < 9; decide) ⟨2, ![a, 1]⟩ c8 rfl rfl 8 rfl (ix2 p (0 : Fin 1)) (hi _) rfl
  | ⟨n + 9, hn⟩ => exact absurd hn (Nat.not_lt.2 (Nat.le_add_left _ _))

/-- The sum of an `[a, b]` array of extended reals along its rows (a lane reduction with the additive neutral element
    as accumulator), read at row `p`: the sum over the columns `k` of the entries `(p, k)`. -/
theorem rowSum_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

end Cert.LibColumns
-- ==== Proof.Payload.lean ====
/-
  What each store of the three kernel bodies writes, as a function of the blocks the body loads.

  At the extended reals a change of float format is the identity and a matrix product accumulated into zero is
  the plain sum of products, so: the first body stores `x · W1`; the second stores, for its block of adjacency
  rows `A`, `A · xw1 + b1`, its positive part, and that positive part times `W2`; the third stores `A · hw2 + b2`
  and its row-wise log-softmax in the arrangement `a - (log S + m)`. The bias arrives as a one-row matrix, whose
  row is spread over the block's rows.
-/
import proofs.«113547_g53876069761532_cont_9to1_m_356_27_alg».proof.Proof.Gen.KernelIdeal.Skeleton
import proofs.«113547_g53876069761532_cont_9to1_m_356_27_alg».proof.Proof.Spec
import proofs.«113547_g53876069761532_cont_9to1_m_356_27_alg».proof.Proof.LibPlain
import proofs.«113547_g53876069761532_cont_9to1_m_356_27_alg».proof.Proof.LibKeepdims
import proofs.«113547_g53876069761532_cont_9to1_m_356_27_alg».proof.Proof.LibColumns
import Idealize.ShloMosaic.Lib.ValueLayout
import Idealize.ShloMosaic.Lib.Pipeline.Value

noncomputable section

namespace Cert.KernelIdeal.Pay

open Cert.KernelIdeal Cert.KernelIdeal.Gen Cert.GcnSpec
open Idealize.ShloMosaic Idealize.ShloMosaic.ValueIdx

/-- The one row of a `1 × n` matrix, as a vector. -/
def rowOf {n : ℕ} (v : Mat 1 n) : Vc n := fun i => v (ix2 (0 : Fin 1) (i 0))

theorem rowOf_ix1 {n : ℕ} (v : Mat 1 n) (q : Fin n) : rowOf v (ix1 q) = v (ix2 (0 : Fin 1) q) := rfl

/-- The first body's store: the product of its two loaded arrays. -/
theorem k0_pay1_eq (v0 : Vec Ideal S10000x256 .f32) (v2 : Vec Ideal S256x256 .f32) :
    k0_pay1 v0 v2 = mm v0 v2 := by
  funext j
  obtain ⟨p, q, rfl⟩ : ∃ (p : Fin 10000) (q : Fin 256), j = ix2 p q := ⟨j 0, j 1, eq_ix2 j⟩
  unfold k0_pay1
  refine (LibPlain.matmul_zero_apply dot_S10000x256_S256x256_S10000x256_1_0_0_1_n_n rfl none _ _ p q).trans ?_
  rfl

/-- The second body's first store: the block's rows times `xw1`, plus the bias row. -/
theorem k1_pay1_eq (v0 : Vec Ideal S400x10000 .f32) (v2 : Vec Ideal S10000x256 .bf16) (v5 : Vec Ideal S1x256 .f32) :
    k1_pay1 v0 v2 v5 = pre1 v0 v2 (rowOf v5) := by
  funext j
  obtain ⟨p, q, rfl⟩ : ∃ (p : Fin 400) (q : Fin 256), j = ix2 p q := ⟨j 0, j 1, eq_ix2 j⟩
  unfold k1_pay1
  show matmul dot_S400x10000_S10000x256_S400x256_1_0_0_1_n_n none _ _ (constant (F := Ideal) S400x256 .f32 0x00000000#32) (ix2 p q)
      + broadcastTo S400x256 (shapeCast S1x256 v5 shapeCasts_S1x256_S1x256) broadcasts_S1x256_S400x256 (ix2 p q) = _
  rw [LibPlain.matmul_zero_apply dot_S400x10000_S10000x256_S400x256_1_0_0_1_n_n rfl none _ _ p q,
    broadcastTo_1b_ab_apply _ broadcasts_S1x256_S400x256 p q, shapeCast_self, shapeCast_self]
  rfl

/-- Its second store: the positive part of the first. -/
theorem k1_pay2_eq (v0 : Vec Ideal S400x10000 .f32) (v2 : Vec Ideal S10000x256 .bf16) (v5 : Vec Ideal S1x256 .f32) :
    k1_pay2 v0 v2 v5 = h1 v0 v2 (rowOf v5) := by
  funext j
  unfold k1_pay2
  rw [k1_pay1_eq]
  show max (pre1 v0 v2 (rowOf v5) j) (Ideal.ofBits .f32 0x00000000#32) = _
  rw [Ideal.ofBits_zero_f32]
  rfl

/-- Its third store: that positive part times the loaded `W2`. -/
theorem k1_pay3_eq (v0 : Vec Ideal S400x10000 .f32) (v2 : Vec Ideal S10000x256 .bf16) (v5 : Vec Ideal S1x256 .f32)
    (v14 : Vec Ideal S256x128 .f32) : k1_pay3 v0 v2 v5 v14 = hw2 v0 v2 (rowOf v5) v14 := by
  funext j
  obtain ⟨p, q, rfl⟩ : ∃ (p : Fin 400) (q : Fin 128), j = ix2 p q := ⟨j 0, j 1, eq_ix2 j⟩
  unfold k1_pay3
  rw [k1_pay2_eq]
  refine (LibPlain.matmul_zero_apply dot_S400x256_S256x128_S400x128_1_0_0_1_n_n rfl none _ _ p q).trans ?_
  rfl

/-- The third body's first store: the block's rows times `hw2`, plus the bias row. -/
theorem k2_pay1_eq (v0 : Vec Ideal S400x10000 .f32) (v2 : Vec Ideal S10000x128 .bf16) (v5 : Vec Ideal S1x128 .f32) :
    k2_pay1 v0 v2 v5 = pre2 v0 v2 (rowOf v5) := by
  funext j
  obtain ⟨p, q, rfl⟩ : ∃ (p : Fin 400) (q : Fin 128), j = ix2 p q := ⟨j 0, j 1, eq_ix2 j⟩
  unfold k2_pay1
  show matmul dot_S400x10000_S10000x128_S400x128_1_0_0_1_n_n none _ _ (constant (F := Ideal) S400x128 .f32 0x00000000#32) (ix2 p q)
      + broadcastTo S400x128 (shapeCast S1x128 v5 shapeCasts_S1x128_S1x128) broadcasts_S1x128_S400x128 (ix2 p q) = _
  rw [LibPlain.matmul_zero_apply dot_S400x10000_S10000x128_S400x128_1_0_0_1_n_n rfl none _ _ p q,
    broadcastTo_1b_ab_apply _ broadcasts_S1x128_S400x128 p q, shapeCast_self, shapeCast_self]
  rfl

/-- The row-wise log-softmax as the third body spells it — the row maximum kept as a column and spread back over
    the row, the exponentials of the differences summed along the row, the logarithm of the sum plus the maximum
    spread back and subtracted — read at `(p, q)`: `a - (log S + m)`. -/
theorem logSoftmax_block (P : FVec Ideal S400x128 .f32) (p : Fin 400) (q : Fin 128) :
    subf P (broadcastTo S400x128 (addf (log (shapeCast S400x1 (multiReduction .add [1] S400 (exp (subf P (broadcastTo S400x128 (shapeCast S400x1 (multiReduction .maximumf [1] S400 P 0xFF800000#32 reduces_S400x128_S400 (.inl rfl) rfl) shapeCasts_S400_S400x1) broadcasts_S400x1_S400x128))) 0x00000000#32 reduces_S400x128_S400 (.inl rfl) rfl) shapeCasts_S400_S400x1)) (shapeCast S400x1 (multiReduction .maximumf [1] S400 P 0xFF800000#32 reduces_S400x128_S400 (.inl rfl) rfl) shapeCasts_S400_S400x1)) broadcasts_S400x1_S400x128) (ix2 p q)
      = logSoftmaxK P (ix2 p q) := by
  have hm : ∀ p' : Fin 400, shapeCast S400x1 (multiReduction .maximumf [1] S400 P 0xFF800000#32 reduces_S400x128_S400 (.inl rfl) rfl) shapeCasts_S400_S400x1 (ix2 p' (0 : Fin 1)) = rowMax P p' := fun p' =>
    (LibKeepdims.shapeCast_a_a1_apply _ shapeCasts_S400_S400x1 p' 0).trans (LibPlain.rowMax_apply P reduces_S400x128_S400 (.inl rfl) rfl p')
  show P (ix2 p q) - broadcastTo S400x128 _ broadcasts_S400x1_S400x128 (ix2 p q) = P (ix2 p q) - (Ideal.log (expSum P p) + rowMax P p)
  refine congrArg (P (ix2 p q) - ·) ?_
  refine (LibKeepdims.broadcastTo_a1_ab_apply _ broadcasts_S400x1_S400x128 p q).trans ?_
  show Ideal.log (shapeCast S400x1 _ shapeCasts_S400_S400x1 (ix2 p (0 : Fin 1))) + shapeCast S400x1 _ shapeCasts_S400_S400x1 (ix2 p (0 : Fin 1)) = _
  rw [hm p]
  refine congrArg (Ideal.log · + rowMax P p) ?_
  refine (LibKeepdims.shapeCast_a_a1_apply _ shapeCasts_S400_S400x1 p 0).trans ?_
  refine (LibColumns.rowSum_apply _ reduces_S400x128_S400 (.inl rfl) rfl p).trans ?_
  refine Finset.sum_congr rfl fun k _ => ?_
  show Ideal.exp (P (ix2 p k) - broadcastTo S400x128 _ broadcasts_S400x1_S400x128 (ix2 p k)) = Ideal.exp (P (ix2 p k) - rowMax P p)
  rw [LibKeepdims.broadcastTo_a1_ab_apply _ broadcasts_S400x1_S400x128 p k, hm p]

/-- The third body's second store: the row-wise log-softmax of its first. -/
theorem k2_pay2_eq (v0 : Vec Ideal S400x10000 .f32) (v2 : Vec Ideal S10000x128 .bf16) (v5 : Vec Ideal S1x128 .f32) :
    k2_pay2 v0 v2 v5 = logSoftmaxK (pre2 v0 v2 (rowOf v5)) := by
  funext j
  obtain ⟨p, q, rfl⟩ : ∃ (p : Fin 400) (q : Fin 128), j = ix2 p q := ⟨j 0, j 1, eq_ix2 j⟩
  unfold k2_pay2
  rw [k2_pay1_eq]
  exact logSoftmax_block (pre2 v0 v2 (rowOf v5)) p q

end Cert.KernelIdeal.Pay

end
-- ==== Proof.Reg0.lean ====
/-
  The first region: one call of its body on whole arrays.

  Whatever the buffers hold when the region is entered (`V`), its output array ends as the matrix product of the
  two arrays it reads: `xw1 = x · W1`. Each of the three windows is its whole array at block `(0, 0)`, so the one
  point loads both operands whole, and what it writes back is the whole product.
-/
import proofs.«113547_g53876069761532_cont_9to1_m_356_27_alg».proof.Proof.Gen.KernelIdeal.Frame
import proofs.«113547_g53876069761532_cont_9to1_m_356_27_alg».proof.Proof.Payload
import Idealize.ShloMosaic.Lib.Pipeline.Value

set_option maxRecDepth 16384

noncomputable section

namespace Cert.KernelIdeal.Reg0

open Cert.KernelIdeal Cert.KernelIdeal.Gen Cert.GcnSpec Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window is at block `(0, 0)` at the one point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of `x` is the whole array. -/
theorem blk_x (c : Dev nD) (t : Fin cfg0.N) : (iblk0 V c 0 t : Vec Ideal S10000x256 .f32) = V c main_arg0 := by
  funext y
  show V c main_arg0 (((cfg0.win 0).blk t).view.emb y) = V c main_arg0 y
  refine congrArg (V c main_arg0) (funext fun a => Fin.ext ?_)
  obtain ⟨e0, e1, -⟩ := idx_facts t
  match a with
  | ⟨0, _⟩ => show win0_0.index t (0 : Fin 2) * 10000 + 1 * (y 0).val = (y 0).val; rw [e0]; omega
  | ⟨1, _⟩ => show win0_0.index t (1 : Fin 2) * 256 + 1 * (y 1).val = (y 1).val; rw [e1]; omega

/-- The block of `W1` is the whole array. -/
theorem blk_W1 (c : Dev nD) (t : Fin cfg0.N) : (iblk0 V c 1 t : Vec Ideal S256x256 .f32) = V c main_arg2 := by
  funext y
  show V c main_arg2 (((cfg0.win 1).blk t).view.emb y) = V c main_arg2 y
  refine congrArg (V c main_arg2) (funext fun a => Fin.ext ?_)
  obtain ⟨-, -, e0, e1, -⟩ := idx_facts t
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- An element of the output block sits at its own coordinates in the array. -/
theorem emb2 (t : Fin cfg0.N) (y : S10000x256.Idx) : ((cfg0.win 2).blk t).view.emb y = y := by
  funext a; apply Fin.ext
  obtain ⟨-, -, -, -, e0, e1⟩ := idx_facts t
  match a with
  | ⟨0, _⟩ => show win0_2.index t (0 : Fin 2) * 10000 + 1 * (y 0).val = (y 0).val; rw [e0]; omega
  | ⟨1, _⟩ => show win0_2.index t (1 : Fin 2) * 256 + 1 * (y 1).val = (y 1).val; rw [e1]; omega

/-- The whole-array function: the product of the two arrays as the region finds them. -/
abbrev G2 (c : Dev nD) : Mat 10000 256 := mm (V c main_arg0) (V c main_arg2)

theorem flushed2_eq (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x256) hz]
  rw [k0_pay1_eq (iblk0 V c 0 t) (iblk0 V c 1 t), blk_x V c t, blk_W1 V c t]
  funext y
  show G2 V c y = G2 V c (((cfg0.win 2).blk t).view.emb y)
  rw [emb2 t y]

/-- An index of the array is in the one point's block iff each coordinate is in the block's range on its axis. -/
theorem mem_blk2 (t : Fin cfg0.N) (i : S10000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v2).slice (win0_2.rect t)).set ↔ _
  rw [View.set_slice_whole, Rect.mem_set_unit]
  exact Iff.rfl

/-- The one block is the whole array. -/
theorem cover2 (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  refine ⟨t0_0, flush0_2 t0_0, ?_⟩
  rw [mem_blk2]
  obtain ⟨-, -, -, -, e0, e1⟩ := idx_facts t0_0
  intro a
  match a with
  | ⟨0, _⟩ =>
    show win0_2.index t0_0 (0 : Fin 2) * 10000 ≤ (i 0).val ∧ (i 0).val < win0_2.index t0_0 (0 : Fin 2) * 10000 + 10000
    rw [e0]; omega
  | ⟨1, _⟩ =>
    show win0_2.index t0_0 (1 : Fin 2) * 256 ≤ (i 1).val ∧ (i 1).val < win0_2.index t0_0 (1 : Fin 2) * 256 + 256
    rw [e1]; omega

/-- The output array ends holding `x · W1`. -/
theorem final2 (c : Dev nD) : (dat0 V c).arrAt 2 cfg0.N = G2 V c :=
  (dat0 V c).arrAt_eq_of_cover 2 (G2 V c) (fun t _ => flushed2_eq V c t) cover2

end Cert.KernelIdeal.Reg0

end
-- ==== Proof.SpecRows.lean ====
/-
  A row of each layer's result depends on the same row of the adjacency operand only.

  Let `A` and `A'` be two adjacency operands (of any numbers of rows) whose rows `i` and `i'` agree. Then row `i` of
  `A · X + b`, of its positive part, of that positive part times `W`, and of `A · Y + b` are rows `i'` of the same
  functions of `A'`; and two matrices whose rows `i` and `i'` agree have the same row-wise log-softmax there (the
  row's maximum and the row's sum of exponentials read that row only).
-/
import proofs.«113547_g53876069761532_cont_9to1_m_356_27_alg».proof.Proof.Spec

noncomputable section

namespace Cert.GcnSpec

open Idealize.ShloMosaic Idealize.ShloMosaic.ValueIdx

variable {M M' : Nat}

theorem pre1_rows (A : Mat M 10000) (A' : Mat M' 10000) (X : Mat 10000 256) (b : Vc 256) (i : Fin M) (i' : Fin M')
    (h : ∀ c : Fin 10000, A (ix2 i c) = A' (ix2 i' c)) (q : Fin 256) : pre1 A X b (ix2 i q) = pre1 A' X b (ix2 i' q) := by
  show mm A X (ix2 i q) + b (ix1 q) = mm A' X (ix2 i' q) + b (ix1 q)
  rw [mm_rows A A' X i i' h q]

theorem h1_rows (A : Mat M 10000) (A' : Mat M' 10000) (X : Mat 10000 256) (b : Vc 256) (i : Fin M) (i' : Fin M')
    (h : ∀ c : Fin 10000, A (ix2 i c) = A' (ix2 i' c)) (q : Fin 256) : h1 A X b (ix2 i q) = h1 A' X b (ix2 i' q) := by
  show max (pre1 A X b (ix2 i q)) 0 = max (pre1 A' X b (ix2 i' q)) 0
  rw [pre1_rows A A' X b i i' h q]

theorem hw2_rows (A : Mat M 10000) (A' : Mat M' 10000) (X : Mat 10000 256) (b : Vc 256) (W : Mat 256 128) (i : Fin M) (i' : Fin M')
    (h : ∀ c : Fin 10000, A (ix2 i c) = A' (ix2 i' c)) (q : Fin 128) : hw2 A X b W (ix2 i q) = hw2 A' X b W (ix2 i' q) :=
  mm_rows (h1 A X b) (h1 A' X b) W i i' (fun c => h1_rows A A' X b i i' h c) q

theorem pre2_rows (A : Mat M 10000) (A' : Mat M' 10000) (Y : Mat 10000 128) (b : Vc 128) (i : Fin M) (i' : Fin M')
    (h : ∀ c : Fin 10000, A (ix2 i c) = A' (ix2 i' c)) (q : Fin 128) : pre2 A Y b (ix2 i q) = pre2 A' Y b (ix2 i' q) := by
  show mm A Y (ix2 i q) + b (ix1 q) = mm A' Y (ix2 i' q) + b (ix1 q)
  rw [mm_rows A A' Y i i' h q]

theorem rowMax_rows {N : Nat} (P : Mat M N) (P' : Mat M' N) (i : Fin M) (i' : Fin M')
    (h : ∀ k : Fin N, P (ix2 i k) = P' (ix2 i' k)) : rowMax P i = rowMax P' i' :=
  congrArg (Finset.fold max ⊥ · Finset.univ) (funext h)

theorem expSum_rows {N : Nat} (P : Mat M N) (P' : Mat M' N) (i : Fin M) (i' : Fin M')
    (h : ∀ k : Fin N, P (ix2 i k) = P' (ix2 i' k)) : expSum P i = expSum P' i' := by
  unfold expSum
  rw [rowMax_rows P P' i i' h]
  exact Finset.sum_congr rfl fun k _ => by rw [h k]

theorem logSoftmaxK_rows {N : Nat} (P : Mat M N) (P' : Mat M' N) (i : Fin M) (i' : Fin M')
    (h : ∀ k : Fin N, P (ix2 i k) = P' (ix2 i' k)) (q : Fin N) : logSoftmaxK P (ix2 i q) = logSoftmaxK P' (ix2 i' q) := by
  rw [logSoftmaxK_ix2, logSoftmaxK_ix2, h q, rowMax_rows P P' i i' h, expSum_rows P P' i i' h]

end Cert.GcnSpec

end
-- ==== Proof.Reg1.lean ====
/-
  The second region: 25 grid points, point `t` working on the 400 adjacency rows `400 t … 400 t + 399`.

  Whatever the buffers hold when the region is entered (`V`), its three output arrays end as whole-array functions
  of four of them — the adjacency matrix, `xw1`, the bias as a one-row matrix, and `W2`:
  `pre1 = adj · xw1 + b1`, its positive part `h1`, and `hw2 = h1 · W2`. Point `t` loads rows `400 t + p` of the adjacency
  matrix and the three other arrays whole, and writes back rows `400 t + p` of each output; a row of each output
  depends on the same row of the adjacency matrix only, and the 25 blocks of 400 rows cover the 10000 rows.
-/
import proofs.«113547_g53876069761532_cont_9to1_m_356_27_alg».proof.Proof.Gen.KernelIdeal.Frame
import proofs.«113547_g53876069761532_cont_9to1_m_356_27_alg».proof.Proof.Payload
import proofs.«113547_g53876069761532_cont_9to1_m_356_27_alg».proof.Proof.SpecRows
import Idealize.ShloMosaic.Lib.Pipeline.Value

set_option maxRecDepth 16384

noncomputable section

namespace Cert.KernelIdeal.Reg1

open Cert.KernelIdeal Cert.KernelIdeal.Gen Cert.GcnSpec Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem lt25 (t : Fin cfg1.N) : t.val < 25 := lt_of_lt_of_eq t.isLt N_1

/-- The array row that row `p` of point `t`'s block is. -/
def row (t : Fin cfg1.N) (p : Fin 400) : Fin 10000 :=
  ⟨t.val * 400 + p.val, by have := lt25 t; have := p.isLt; omega⟩

/-- The printed index maps over the 25 points: the adjacency window and the three output windows are at block
    `(t, 0)`, the three whole-array windows at block `(0, 0)`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ## The input blocks -/

/-- Point `t`'s adjacency block, read at `(p, k)`, is the adjacency matrix at row `400 t + p`. -/
theorem blk_adj (c : Dev nD) (t : Fin cfg1.N) (p : Fin 400) (k : Fin 10000) :
    (iblk1 V c 0 t : Vec Ideal S400x10000 .f32) (ix2 p k) = (V c main_arg1 : Mat 10000 10000) (ix2 (row t p) k) := by
  show V c main_arg1 (((cfg1.win 0).blk t).view.emb (ix2 p k)) = V c main_arg1 (ix2 (row t p) k)
  refine congrArg (V c main_arg1) (funext fun a => Fin.ext ?_)
  obtain ⟨e0, e1, -⟩ := idx_facts t
  match a with
  | ⟨0, _⟩ => show win1_0.index t (0 : Fin 2) * 400 + 1 * p.val = t.val * 400 + p.val; rw [e0]; omega
  | ⟨1, _⟩ => show win1_0.index t (1 : Fin 2) * 10000 + 1 * k.val = k.val; rw [e1]; omega

/-- The block of `xw1` is the whole array. -/
theorem blk_xw1 (c : Dev nD) (t : Fin cfg1.N) : (iblk1 V c 1 t : Vec Ideal S10000x256 .bf16) = V c main_v2 := by
  funext y
  show V c main_v2 (((cfg1.win 1).blk t).view.emb y) = V c main_v2 y
  refine congrArg (V c main_v2) (funext fun a => Fin.ext ?_)
  obtain ⟨-, -, e0, e1, -⟩ := idx_facts t
  match a with
  | ⟨0, _⟩ => show win1_1.index t (0 : Fin 2) * 10000 + 1 * (y 0).val = (y 0).val; rw [e0]; omega
  | ⟨1, _⟩ => show win1_1.index t (1 : Fin 2) * 256 + 1 * (y 1).val = (y 1).val; rw [e1]; omega

/-- The block of the one-row bias is the whole array. -/
theorem blk_b1 (c : Dev nD) (t : Fin cfg1.N) : (iblk1 V c 2 t : Vec Ideal S1x256 .f32) = V c main_v0 := by
  funext y
  show V c main_v0 (((cfg1.win 2).blk t).view.emb y) = V c main_v0 y
  refine congrArg (V c main_v0) (funext fun a => Fin.ext ?_)
  obtain ⟨-, -, -, -, e0, e1, -⟩ := idx_facts t
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- The block of `W2` is the whole array. -/
theorem blk_W2 (c : Dev nD) (t : Fin cfg1.N) : (iblk1 V c 3 t : Vec Ideal S256x128 .f32) = V c main_arg4 := by
  funext y
  show V c main_arg4 (((cfg1.win 3).blk t).view.emb y) = V c main_arg4 y
  refine congrArg (V c main_arg4) (funext fun a => Fin.ext ?_)
  obtain ⟨-, -, -, -, -, -, e0, e1, -⟩ := idx_facts t
  match a with
  | ⟨0, _⟩ => show win1_3.index t (0 : Fin 2) * 256 + 1 * (y 0).val = (y 0).val; rw [e0]; omega
  | ⟨1, _⟩ => show win1_3.index t (1 : Fin 2) * 128 + 1 * (y 1).val = (y 1).val; rw [e1]; omega

/-! ## Where an output block's element sits in its array -/

theorem emb4 (t : Fin cfg1.N) (p : Fin 400) (q : Fin 256) :
    ((cfg1.win 4).blk t).view.emb (ix2 p q : S400x256.Idx) = (ix2 (row t p) q : S10000x256.Idx) := by
  funext a; apply Fin.ext
  obtain ⟨-, -, -, -, -, -, -, -, e0, e1, -⟩ := idx_facts t
  match a with
  | ⟨0, _⟩ => show win1_4.index t (0 : Fin 2) * 400 + 1 * p.val = t.val * 400 + p.val; rw [e0]; omega
  | ⟨1, _⟩ => show win1_4.index t (1 : Fin 2) * 256 + 1 * q.val = q.val; rw [e1]; omega

theorem emb5 (t : Fin cfg1.N) (p : Fin 400) (q : Fin 256) :
    ((cfg1.win 5).blk t).view.emb (ix2 p q : S400x256.Idx) = (ix2 (row t p) q : S10000x256.Idx) := by
  funext a; apply Fin.ext
  obtain ⟨-, -, -, -, -, -, -, -, -, -, e0, e1, -⟩ := idx_facts t
  match a with
  | ⟨0, _⟩ => show win1_5.index t (0 : Fin 2) * 400 + 1 * p.val = t.val * 400 + p.val; rw [e0]; omega
  | ⟨1, _⟩ => show win1_5.index t (1 : Fin 2) * 256 + 1 * q.val = q.val; rw [e1]; omega

theorem emb6 (t : Fin cfg1.N) (p : Fin 400) (q : Fin 128) :
    ((cfg1.win 6).blk t).view.emb (ix2 p q : S400x128.Idx) = (ix2 (row t p) q : S10000x128.Idx) := by
  funext a; apply Fin.ext
  obtain ⟨-, -, -, -, -, -, -, -, -, -, -, -, e0, e1⟩ := idx_facts t
  match a with
  | ⟨0, _⟩ => show win1_6.index t (0 : Fin 2) * 400 + 1 * p.val = t.val * 400 + p.val; rw [e0]; omega
  | ⟨1, _⟩ => show win1_6.index t (1 : Fin 2) * 128 + 1 * q.val = q.val; rw [e1]; omega

/-! ## What each point writes back -/

/-- The three whole-array functions, of the buffers as the region finds them. -/
abbrev G4 (c : Dev nD) : Mat 10000 256 := pre1 (V c main_arg1) (V c main_v2) (rowOf (V c main_v0))
abbrev G5 (c : Dev nD) : Mat 10000 256 := h1 (V c main_arg1) (V c main_v2) (rowOf (V c main_v0))
abbrev G6 (c : Dev nD) : Mat 10000 128 := hw2 (V c main_arg1) (V c main_v2) (rowOf (V c main_v0)) (V c main_arg4)

theorem flushed4_eq (c : Dev nD) (t : Fin cfg1.N) :
    (dat1 V c).flushed 4 t = ((cfg1.win 4).blk t).view.read (Elt Ideal) (G4 V c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x256) hz, View.ld_unit_zero (S := S1x256) hz]
  rw [k1_pay1_eq (iblk1 V c 0 t) (iblk1 V c 1 t) (iblk1 V c 2 t), blk_xw1 V c t, blk_b1 V c t]
  funext y
  obtain ⟨p, q, rfl⟩ : ∃ (p : Fin 400) (q : Fin 256), y = ix2 p q := ⟨y 0, y 1, eq_ix2 y⟩
  show pre1 (iblk1 V c 0 t : Vec Ideal S400x10000 .f32) (V c main_v2) (rowOf (V c main_v0)) (ix2 p q)
    = G4 V c (((cfg1.win 4).blk t).view.emb (ix2 p q))
  rw [emb4 t p q]
  exact pre1_rows _ _ _ _ p (row t p) (fun k => blk_adj V c t p k) q

theorem flushed5_eq (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5]
  unfold out1_5
  rw [View.canon_unit_zero hz]
  simp only [View.ld_unit_zero (S := S400x10000) hz, View.ld_unit_zero (S := S10000x256) hz, View.ld_unit_zero (S := S1x256) hz]
  rw [k1_pay2_eq (iblk1 V c 0 t) (iblk1 V c 1 t) (iblk1 V c 2 t), blk_xw1 V c t, blk_b1 V c t]
  funext y
  obtain ⟨p, q, rfl⟩ : ∃ (p : Fin 400) (q : Fin 256), y = ix2 p q := ⟨y 0, y 1, eq_ix2 y⟩
  show h1 (iblk1 V c 0 t : Vec Ideal S400x10000 .f32) (V c main_v2) (rowOf (V c main_v0)) (ix2 p q)
    = G5 V c (((cfg1.win 5).blk t).view.emb (ix2 p q))
  rw [emb5 t p q]
  exact h1_rows _ _ _ _ p (row t p) (fun k => blk_adj V c t p k) q

theorem flushed6_eq (c : Dev nD) (t : Fin cfg1.N) :
    (dat1 V c).flushed 6 t = ((cfg1.win 6).blk t).view.read (Elt Ideal) (G6 V c) := by
  show (cfg1.win 6).cut (grid1.coords t) ((dat1 V c).after 6 t) = _
  rw [after1_6]
  unfold out1_6
  rw [View.canon_unit_zero hz]
  simp only [View.ld_unit_zero (S := S400x10000) hz, View.ld_unit_zero (S := S10000x256) hz, View.ld_unit_zero (S := S1x256) hz, View.ld_unit_zero (S := S256x128) hz]
  rw [k1_pay3_eq (iblk1 V c 0 t) (iblk1 V c 1 t) (iblk1 V c 2 t) (iblk1 V c 3 t), blk_xw1 V c t, blk_b1 V c t, blk_W2 V c t]
  funext y
  obtain ⟨p, q, rfl⟩ : ∃ (p : Fin 400) (q : Fin 128), y = ix2 p q := ⟨y 0, y 1, eq_ix2 y⟩
  show hw2 (iblk1 V c 0 t : Vec Ideal S400x10000 .f32) (V c main_v2) (rowOf (V c main_v0)) (V c main_arg4) (ix2 p q)
    = G6 V c (((cfg1.win 6).blk t).view.emb (ix2 p q))
  rw [emb6 t p q]
  exact hw2_rows _ _ _ _ _ p (row t p) (fun k => blk_adj V c t p k) q

/-! ## The blocks cover the arrays -/

/-- An index of the array is in point `t`'s block iff each coordinate is in the block's range on its axis. -/
theorem mem_blk4 (t : Fin cfg1.N) (i : S10000x256.Idx) :
    i ∈ ((cfg1.win 4).blk t).view.set ↔ ∀ a : Fin 2, win1_4.index t a * S400x256.size a ≤ (i a).val ∧ (i a).val < win1_4.index t a * S400x256.size a + S400x256.size a := by
  show i ∈ ((View.whole main_v3_0).slice (win1_4.rect t)).set ↔ _
  rw [View.set_slice_whole, Rect.mem_set_unit]
  exact Iff.rfl

/-- Row `r` of the array is in the block of point `r / 400`: the 25 blocks cover the array. -/
theorem cover4 (i : S10000x256.Idx) : ∃ t : Fin cfg1.N, (cfg1.win 4).flush t = true ∧ i ∈ ((cfg1.win 4).blk t).view.set := by
  have hi0 : (i 0).val < 10000 := (i 0).isLt
  have hi1 : (i 1).val < 256 := (i 1).isLt
  obtain ⟨t, ht⟩ : ∃ t : Fin cfg1.N, t.val = (i 0).val / 400 :=
    ⟨⟨(i 0).val / 400, lt_of_lt_of_eq (by omega : (i 0).val / 400 < 25) N_1.symm⟩, rfl⟩
  refine ⟨t, flush1_4 t, ?_⟩
  rw [mem_blk4]
  obtain ⟨-, -, -, -, -, -, -, -, e0, e1, -⟩ := idx_facts t
  intro a
  match a with
  | ⟨0, _⟩ =>
    show win1_4.index t (0 : Fin 2) * 400 ≤ (i 0).val ∧ (i 0).val < win1_4.index t (0 : Fin 2) * 400 + 400
    rw [e0, ht]; omega
  | ⟨1, _⟩ =>
    show win1_4.index t (1 : Fin 2) * 256 ≤ (i 1).val ∧ (i 1).val < win1_4.index t (1 : Fin 2) * 256 + 256
    rw [e1]; omega

/-- An index of the array is in point `t`'s block iff each coordinate is in the block's range on its axis. -/
theorem mem_blk5 (t : Fin cfg1.N) (i : S10000x256.Idx) :
    i ∈ ((cfg1.win 5).blk t).view.set ↔ ∀ a : Fin 2, win1_5.index t a * S400x256.size a ≤ (i a).val ∧ (i a).val < win1_5.index t a * S400x256.size a + S400x256.size a := by
  show i ∈ ((View.whole main_v3_1).slice (win1_5.rect t)).set ↔ _
  rw [View.set_slice_whole, Rect.mem_set_unit]
  exact Iff.rfl

/-- Row `r` of the array is in the block of point `r / 400`: the 25 blocks cover the array. -/
theorem cover5 (i : S10000x256.Idx) : ∃ t : Fin cfg1.N, (cfg1.win 5).flush t = true ∧ i ∈ ((cfg1.win 5).blk t).view.set := by
  have hi0 : (i 0).val < 10000 := (i 0).isLt
  have hi1 : (i 1).val < 256 := (i 1).isLt
  obtain ⟨t, ht⟩ : ∃ t : Fin cfg1.N, t.val = (i 0).val / 400 :=
    ⟨⟨(i 0).val / 400, lt_of_lt_of_eq (by omega : (i 0).val / 400 < 25) N_1.symm⟩, rfl⟩
  refine ⟨t, flush1_5 t, ?_⟩
  rw [mem_blk5]
  obtain ⟨-, -, -, -, -, -, -, -, -, -, e0, e1, -⟩ := idx_facts t
  intro a
  match a with
  | ⟨0, _⟩ =>
    show win1_5.index t (0 : Fin 2) * 400 ≤ (i 0).val ∧ (i 0).val < win1_5.index t (0 : Fin 2) * 400 + 400
    rw [e0, ht]; omega
  | ⟨1, _⟩ =>
    show win1_5.index t (1 : Fin 2) * 256 ≤ (i 1).val ∧ (i 1).val < win1_5.index t (1 : Fin 2) * 256 + 256
    rw [e1]; omega

/-- An index of the array is in point `t`'s block iff each coordinate is in the block's range on its axis. -/
theorem mem_blk6 (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_v3_2).slice (win1_6.rect t)).set ↔ _
  rw [View.set_slice_whole, Rect.mem_set_unit]
  exact Iff.rfl

/-- Row `r` of the array is in the block of point `r / 400`: the 25 blocks cover the array. -/
theorem cover6 (i : S10000x128.Idx) : ∃ t : Fin cfg1.N, (cfg1.win 6).flush t = true ∧ i ∈ ((cfg1.win 6).blk t).view.set := by
  have hi0 : (i 0).val < 10000 := (i 0).isLt
  have hi1 : (i 1).val < 128 := (i 1).isLt
  obtain ⟨t, ht⟩ : ∃ t : Fin cfg1.N, t.val = (i 0).val / 400 :=
    ⟨⟨(i 0).val / 400, lt_of_lt_of_eq (by omega : (i 0).val / 400 < 25) N_1.symm⟩, rfl⟩
  refine ⟨t, flush1_6 t, ?_⟩
  rw [mem_blk6]
  obtain ⟨-, -, -, -, -, -, -, -, -, -, -, -, e0, e1⟩ := idx_facts t
  intro a
  match a with
  | ⟨0, _⟩ =>
    show win1_6.index t (0 : Fin 2) * 400 ≤ (i 0).val ∧ (i 0).val < win1_6.index t (0 : Fin 2) * 400 + 400
    rw [e0, ht]; omega
  | ⟨1, _⟩ =>
    show win1_6.index t (1 : Fin 2) * 128 ≤ (i 1).val ∧ (i 1).val < win1_6.index t (1 : Fin 2) * 128 + 128
    rw [e1]; omega

/-! ## The three arrays after the region -/

/-- The first output array ends holding `adj · xw1 + b1`. -/
theorem final4 (c : Dev nD) : (dat1 V c).arrAt 4 cfg1.N = G4 V c :=
  (dat1 V c).arrAt_eq_of_cover 4 (G4 V c) (fun t _ => flushed4_eq V c t) cover4
/-- The second its positive part. -/
theorem final5 (c : Dev nD) : (dat1 V c).arrAt 5 cfg1.N = G5 V c :=
  (dat1 V c).arrAt_eq_of_cover 5 (G5 V c) (fun t _ => flushed5_eq V c t) cover5
/-- The third that positive part times `W2`. -/
theorem final6 (c : Dev nD) : (dat1 V c).arrAt 6 cfg1.N = G6 V c :=
  (dat1 V c).arrAt_eq_of_cover 6 (G6 V c) (fun t _ => flushed6_eq V c t) cover6

end Cert.KernelIdeal.Reg1

end
-- ==== Proof.Reg2.lean ====
/-
  The third region: 25 grid points, point `t` working on the 400 adjacency rows `400 t … 400 t + 399`.

  Whatever the buffers hold when the region is entered (`V`), its two output arrays end as whole-array functions of
  three of them — the adjacency matrix, `hw2`, and the second bias as a one-row matrix: `pre2 = adj · hw2 + b2` and its
  row-wise log-softmax in the arrangement `a - (log S + m)`. A row of `pre2` depends on the same row of the
  adjacency matrix only, a row of the log-softmax on the same row of `pre2` only, and the 25 blocks of 400 rows
  cover the 10000 rows.
-/
import proofs.«113547_g53876069761532_cont_9to1_m_356_27_alg».proof.Proof.Gen.KernelIdeal.Frame
import proofs.«113547_g53876069761532_cont_9to1_m_356_27_alg».proof.Proof.Payload
import proofs.«113547_g53876069761532_cont_9to1_m_356_27_alg».proof.Proof.SpecRows
import Idealize.ShloMosaic.Lib.Pipeline.Value

set_option maxRecDepth 16384

noncomputable section

namespace Cert.KernelIdeal.Reg2

open Cert.KernelIdeal Cert.KernelIdeal.Gen Cert.GcnSpec Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem lt25 (t : Fin cfg2.N) : t.val < 25 := lt_of_lt_of_eq t.isLt N_2

/-- The array row that row `p` of point `t`'s block is. -/
def row (t : Fin cfg2.N) (p : Fin 400) : Fin 10000 :=
  ⟨t.val * 400 + p.val, by have := lt25 t; have := p.isLt; omega⟩

/-- The printed index maps over the 25 points: the adjacency window and the two output windows are at block
    `(t, 0)`, the two whole-array windows at block `(0, 0)`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-! ## The input blocks -/

/-- Point `t`'s adjacency block, read at `(p, k)`, is the adjacency matrix at row `400 t + p`. -/
theorem blk_adj (c : Dev nD) (t : Fin cfg2.N) (p : Fin 400) (k : Fin 10000) :
    (iblk2 V c 0 t : Vec Ideal S400x10000 .f32) (ix2 p k) = (V c main_arg1 : Mat 10000 10000) (ix2 (row t p) k) := by
  show V c main_arg1 (((cfg2.win 0).blk t).view.emb (ix2 p k)) = V c main_arg1 (ix2 (row t p) k)
  refine congrArg (V c main_arg1) (funext fun a => Fin.ext ?_)
  obtain ⟨e0, e1, -⟩ := idx_facts t
  match a with
  | ⟨0, _⟩ => show win2_0.index t (0 : Fin 2) * 400 + 1 * p.val = t.val * 400 + p.val; rw [e0]; omega
  | ⟨1, _⟩ => show win2_0.index t (1 : Fin 2) * 10000 + 1 * k.val = k.val; rw [e1]; omega

/-- The block of `hw2` is the whole array. -/
theorem blk_hw2 (c : Dev nD) (t : Fin cfg2.N) : (iblk2 V c 1 t : Vec Ideal S10000x128 .bf16) = V c main_v3_2 := by
  funext y
  show V c main_v3_2 (((cfg2.win 1).blk t).view.emb y) = V c main_v3_2 y
  refine congrArg (V c main_v3_2) (funext fun a => Fin.ext ?_)
  obtain ⟨-, -, e0, e1, -⟩ := idx_facts t
  match a with
  | ⟨0, _⟩ => show win2_1.index t (0 : Fin 2) * 10000 + 1 * (y 0).val = (y 0).val; rw [e0]; omega
  | ⟨1, _⟩ => show win2_1.index t (1 : Fin 2) * 128 + 1 * (y 1).val = (y 1).val; rw [e1]; omega

/-- The block of the one-row bias is the whole array. -/
theorem blk_b2 (c : Dev nD) (t : Fin cfg2.N) : (iblk2 V c 2 t : Vec Ideal S1x128 .f32) = V c main_v1 := by
  funext y
  show V c main_v1 (((cfg2.win 2).blk t).view.emb y) = V c main_v1 y
  refine congrArg (V c main_v1) (funext fun a => Fin.ext ?_)
  obtain ⟨-, -, -, -, e0, e1, -⟩ := idx_facts t
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-! ## Where an output block's element sits in its array -/

theorem emb3 (t : Fin cfg2.N) (p : Fin 400) (q : Fin 128) :
    ((cfg2.win 3).blk t).view.emb (ix2 p q : S400x128.Idx) = (ix2 (row t p) q : S10000x128.Idx) := by
  funext a; apply Fin.ext
  obtain ⟨-, -, -, -, -, -, e0, e1, -⟩ := idx_facts t
  match a with
  | ⟨0, _⟩ => show win2_3.index t (0 : Fin 2) * 400 + 1 * p.val = t.val * 400 + p.val; rw [e0]; omega
  | ⟨1, _⟩ => show win2_3.index t (1 : Fin 2) * 128 + 1 * q.val = q.val; rw [e1]; omega

theorem emb4 (t : Fin cfg2.N) (p : Fin 400) (q : Fin 128) :
    ((cfg2.win 4).blk t).view.emb (ix2 p q : S400x128.Idx) = (ix2 (row t p) q : S10000x128.Idx) := by
  funext a; apply Fin.ext
  obtain ⟨-, -, -, -, -, -, -, -, e0, e1⟩ := idx_facts t
  match a with
  | ⟨0, _⟩ => show win2_4.index t (0 : Fin 2) * 400 + 1 * p.val = t.val * 400 + p.val; rw [e0]; omega
  | ⟨1, _⟩ => show win2_4.index t (1 : Fin 2) * 128 + 1 * q.val = q.val; rw [e1]; omega

/-! ## What each point writes back -/

/-- The two whole-array functions, of the buffers as the region finds them. -/
abbrev G3 (c : Dev nD) : Mat 10000 128 := pre2 (V c main_arg1) (V c main_v3_2) (rowOf (V c main_v1))
abbrev G4 (c : Dev nD) : Mat 10000 128 := logSoftmaxK (G3 V c)

theorem flushed3_eq (c : Dev nD) (t : Fin cfg2.N) :
    (dat2 V c).flushed 3 t = ((cfg2.win 3).blk t).view.read (Elt Ideal) (G3 V c) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x128) hz, View.ld_unit_zero (S := S1x128) hz]
  rw [k2_pay1_eq (iblk2 V c 0 t) (iblk2 V c 1 t) (iblk2 V c 2 t), blk_hw2 V c t, blk_b2 V c t]
  funext y
  obtain ⟨p, q, rfl⟩ : ∃ (p : Fin 400) (q : Fin 128), y = ix2 p q := ⟨y 0, y 1, eq_ix2 y⟩
  show pre2 (iblk2 V c 0 t : Vec Ideal S400x10000 .f32) (V c main_v3_2) (rowOf (V c main_v1)) (ix2 p q)
    = G3 V c (((cfg2.win 3).blk t).view.emb (ix2 p q))
  rw [emb3 t p q]
  exact pre2_rows _ _ _ _ p (row t p) (fun k => blk_adj V c t p k) q

theorem flushed4_eq (c : Dev nD) (t : Fin cfg2.N) :
    (dat2 V c).flushed 4 t = ((cfg2.win 4).blk t).view.read (Elt Ideal) (G4 V c) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x128) hz, View.ld_unit_zero (S := S1x128) hz]
  rw [k2_pay2_eq (iblk2 V c 0 t) (iblk2 V c 1 t) (iblk2 V c 2 t), blk_hw2 V c t, blk_b2 V c t]
  funext y
  obtain ⟨p, q, rfl⟩ : ∃ (p : Fin 400) (q : Fin 128), y = ix2 p q := ⟨y 0, y 1, eq_ix2 y⟩
  show logSoftmaxK (pre2 (iblk2 V c 0 t : Vec Ideal S400x10000 .f32) (V c main_v3_2) (rowOf (V c main_v1))) (ix2 p q)
    = G4 V c (((cfg2.win 4).blk t).view.emb (ix2 p q))
  rw [emb4 t p q]
  exact logSoftmaxK_rows _ _ p (row t p) (fun k => pre2_rows _ _ _ _ p (row t p) (fun k' => blk_adj V c t p k') k) q

/-! ## The blocks cover the arrays -/

/-- An index of the array is in point `t`'s block iff each coordinate is in the block's range on its axis. -/
theorem mem_blk3 (t : Fin cfg2.N) (i : S10000x128.Idx) :
    i ∈ ((cfg2.win 3).blk t).view.set ↔ ∀ a : Fin 2, win2_3.index t a * S400x128.size a ≤ (i a).val ∧ (i a).val < win2_3.index t a * S400x128.size a + S400x128.size a := by
  show i ∈ ((View.whole main_v4_0).slice (win2_3.rect t)).set ↔ _
  rw [View.set_slice_whole, Rect.mem_set_unit]
  exact Iff.rfl

/-- Row `r` of the array is in the block of point `r / 400`: the 25 blocks cover the array. -/
theorem cover3 (i : S10000x128.Idx) : ∃ t : Fin cfg2.N, (cfg2.win 3).flush t = true ∧ i ∈ ((cfg2.win 3).blk t).view.set := by
  have hi0 : (i 0).val < 10000 := (i 0).isLt
  have hi1 : (i 1).val < 128 := (i 1).isLt
  obtain ⟨t, ht⟩ : ∃ t : Fin cfg2.N, t.val = (i 0).val / 400 :=
    ⟨⟨(i 0).val / 400, lt_of_lt_of_eq (by omega : (i 0).val / 400 < 25) N_2.symm⟩, rfl⟩
  refine ⟨t, flush2_3 t, ?_⟩
  rw [mem_blk3]
  obtain ⟨-, -, -, -, -, -, e0, e1, -⟩ := idx_facts t
  intro a
  match a with
  | ⟨0, _⟩ =>
    show win2_3.index t (0 : Fin 2) * 400 ≤ (i 0).val ∧ (i 0).val < win2_3.index t (0 : Fin 2) * 400 + 400
    rw [e0, ht]; omega
  | ⟨1, _⟩ =>
    show win2_3.index t (1 : Fin 2) * 128 ≤ (i 1).val ∧ (i 1).val < win2_3.index t (1 : Fin 2) * 128 + 128
    rw [e1]; omega

/-- An index of the array is in point `t`'s block iff each coordinate is in the block's range on its axis. -/
theorem mem_blk4 (t : Fin cfg2.N) (i : S10000x128.Idx) :
    i ∈ ((cfg2.win 4).blk t).view.set ↔ ∀ a : Fin 2, win2_4.index t a * S400x128.size a ≤ (i a).val ∧ (i a).val < win2_4.index t a * S400x128.size a + S400x128.size a := by
  show i ∈ ((View.whole main_v4_1).slice (win2_4.rect t)).set ↔ _
  rw [View.set_slice_whole, Rect.mem_set_unit]
  exact Iff.rfl

/-- Row `r` of the array is in the block of point `r / 400`: the 25 blocks cover the array. -/
theorem cover4 (i : S10000x128.Idx) : ∃ t : Fin cfg2.N, (cfg2.win 4).flush t = true ∧ i ∈ ((cfg2.win 4).blk t).view.set := by
  have hi0 : (i 0).val < 10000 := (i 0).isLt
  have hi1 : (i 1).val < 128 := (i 1).isLt
  obtain ⟨t, ht⟩ : ∃ t : Fin cfg2.N, t.val = (i 0).val / 400 :=
    ⟨⟨(i 0).val / 400, lt_of_lt_of_eq (by omega : (i 0).val / 400 < 25) N_2.symm⟩, rfl⟩
  refine ⟨t, flush2_4 t, ?_⟩
  rw [mem_blk4]
  obtain ⟨-, -, -, -, -, -, -, -, e0, e1⟩ := idx_facts t
  intro a
  match a with
  | ⟨0, _⟩ =>
    show win2_4.index t (0 : Fin 2) * 400 ≤ (i 0).val ∧ (i 0).val < win2_4.index t (0 : Fin 2) * 400 + 400
    rw [e0, ht]; omega
  | ⟨1, _⟩ =>
    show win2_4.index t (1 : Fin 2) * 128 ≤ (i 1).val ∧ (i 1).val < win2_4.index t (1 : Fin 2) * 128 + 128
    rw [e1]; omega

/-! ## The two arrays after the region -/

/-- The first output array ends holding `adj · hw2 + b2`. -/
theorem final3 (c : Dev nD) : (dat2 V c).arrAt 3 cfg2.N = G3 V c :=
  (dat2 V c).arrAt_eq_of_cover 3 (G3 V c) (fun t _ => flushed3_eq V c t) cover3
/-- The second its row-wise log-softmax. -/
theorem final4 (c : Dev nD) : (dat2 V c).arrAt 4 cfg2.N = G4 V c :=
  (dat2 V c).arrAt_eq_of_cover 4 (G4 V c) (fun t _ => flushed4_eq V c t) cover4

end Cert.KernelIdeal.Reg2

end
-- ==== Proof.KChain.lean ====
/-
  The kernel program's five results as functions of its six arguments, at the extended reals.

  The buffers at each region's entry are a fold from the launch memory. Walking it: the host stretch only writes
  the two one-row biases (each the bias vector cast to one row); the first region leaves `xw1 = x · W1` and keeps
  everything else; the second region finds the adjacency matrix, `xw1`, the first one-row bias and `W2` there, and
  leaves `pre1`, `h1` and `hw2`; the third finds the adjacency matrix, `hw2` and the second one-row bias, and leaves
  `pre2` and its row-wise log-softmax. So the program ends with `pre1 = adj · (x · W1) + b1`, `h1 = relu pre1`,
  `pre2 = adj · (h1 · W2) + b2` and `log_softmax pre2` (arranged `a - (log S + m)`) in its result buffers.
-/
import proofs.«113547_g53876069761532_cont_9to1_m_356_27_alg».proof.Proof.KRun
import proofs.«113547_g53876069761532_cont_9to1_m_356_27_alg».proof.Proof.Reg0
import proofs.«113547_g53876069761532_cont_9to1_m_356_27_alg».proof.Proof.Reg1
import proofs.«113547_g53876069761532_cont_9to1_m_356_27_alg».proof.Proof.Reg2
import Idealize.ShloMosaic.Lib.ValueLayout

set_option maxRecDepth 16384

noncomputable section

namespace Cert.KernelIdeal.KVal

open Cert.KernelIdeal Cert.KernelIdeal.Gen Cert.GcnSpec Cert.KernelIdeal.Pay
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## After the host stretch -/

/-- No host operation writes `main_arg0`: after the host stretch it is as launched. -/
theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))).trans rfl

/-- No host operation writes `main_arg1`: after the host stretch it is as launched. -/
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))).trans rfl

/-- No host operation writes `main_arg2`: after the host stretch it is as launched. -/
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))).trans rfl

/-- No host operation writes `main_arg4`: after the host stretch it is as launched. -/
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))).trans rfl

/-- The first one-row bias is the bias vector cast to one row. -/
theorem W1_main_v0 (c : Dev nD) :
    (W1 m ρ c (Proc.devRef .tc main_v0) : Mat 1 256) = shapeCast S1x256 (m ((c : Thread nD τ).loc main_arg3)) shapeCasts_S256_S1x256 := by
  show StableHlo.after hostOps0 (W0 m ρ c) (Proc.devRef .tc main_v0) = _
  after_results
  rfl

/-- The second one-row bias likewise. -/
theorem W1_main_v1 (c : Dev nD) :
    (W1 m ρ c (Proc.devRef .tc main_v1) : Mat 1 128) = shapeCast S1x128 (m ((c : Thread nD τ).loc main_arg5)) shapeCasts_S128_S1x128 := by
  show StableHlo.after hostOps0 (W0 m ρ c) (Proc.devRef .tc main_v1) = _
  after_results
  rfl

/-- The one row of a vector cast to one row is the vector. -/
theorem rowOf_shapeCast {n : ℕ} (b : Vc n) (h : (⟨1, ![n]⟩ : Shape).ShapeCasts ⟨2, ![1, n]⟩) :
    rowOf (shapeCast ⟨2, ![1, n]⟩ b h) = b := by
  funext i
  obtain ⟨q, rfl⟩ : ∃ q : Fin n, i = ix1 q := ⟨i 0, eq_ix1 i⟩
  exact shapeCast_a_1a_apply b h 0 q

/-! ## What the second region finds -/

theorem V2_main_arg1 (c : Dev nD) : V2 m ρ c main_arg1 = m ((c : Thread nD τ).loc main_arg1) :=
  (W2_of_ne m ρ c main_arg1 (by decide)).trans (W1_main_arg1 m ρ c)
theorem V2_main_arg4 (c : Dev nD) : V2 m ρ c main_arg4 = m ((c : Thread nD τ).loc main_arg4) :=
  (W2_of_ne m ρ c main_arg4 (by decide)).trans (W1_main_arg4 m ρ c)
/-- `xw1 = x · W1`. -/
theorem V2_main_v2 (c : Dev nD) :
    (V2 m ρ c main_v2 : Mat 10000 256) = mm (m ((c : Thread nD τ).loc main_arg0)) (m ((c : Thread nD τ).loc main_arg2)) := by
  refine (W2_arr m ρ c 2).trans ((Reg0.final2 (V1 m ρ) c).trans ?_)
  show mm (W1 m ρ c (Proc.devRef .tc main_arg0)) (W1 m ρ c (Proc.devRef .tc main_arg2)) = _
  rw [W1_main_arg0, W1_main_arg2]
theorem V2_main_v0 (c : Dev nD) : rowOf (V2 m ρ c main_v0 : Mat 1 256) = m ((c : Thread nD τ).loc main_arg3) := by
  rw [show (V2 m ρ c main_v0 : Mat 1 256) = W1 m ρ c (Proc.devRef .tc main_v0) from W2_of_ne m ρ c main_v0 (by decide),
    W1_main_v0, rowOf_shapeCast]

/-! ## What the third region finds -/

theorem V3_main_arg1 (c : Dev nD) : V3 m ρ c main_arg1 = m ((c : Thread nD τ).loc main_arg1) :=
  ((W3_arr m ρ c 0).trans (((dat1 (V2 m ρ) c).arrAt_in 0 rfl _).trans (A_eq1 (V2 m ρ) c 0))).trans (V2_main_arg1 m ρ c)
theorem V3_main_v1 (c : Dev nD) : rowOf (V3 m ρ c main_v1 : Mat 1 128) = m ((c : Thread nD τ).loc main_arg5) := by
  rw [show (V3 m ρ c main_v1 : Mat 1 128) = W1 m ρ c (Proc.devRef .tc main_v1) from
      (W3_of_ne m ρ c main_v1 (by decide)).trans (W2_of_ne m ρ c main_v1 (by decide)),
    W1_main_v1, rowOf_shapeCast]

/-- The second region's three arrays, of the arguments. -/
theorem arr1_4 (c : Dev nD) : (dat1 (V2 m ρ) c).arrAt 4 cfg1.N
    = pre1 (m ((c : Thread nD τ).loc main_arg1)) (mm (m ((c : Thread nD τ).loc main_arg0)) (m ((c : Thread nD τ).loc main_arg2))) (m ((c : Thread nD τ).loc main_arg3)) := by
  refine (Reg1.final4 (V2 m ρ) c).trans ?_
  show pre1 (V2 m ρ c main_arg1) (V2 m ρ c main_v2) (rowOf (V2 m ρ c main_v0)) = _
  rw [V2_main_arg1, V2_main_v2, V2_main_v0]
theorem arr1_5 (c : Dev nD) : (dat1 (V2 m ρ) c).arrAt 5 cfg1.N
    = h1 (m ((c : Thread nD τ).loc main_arg1)) (mm (m ((c : Thread nD τ).loc main_arg0)) (m ((c : Thread nD τ).loc main_arg2))) (m ((c : Thread nD τ).loc main_arg3)) := by
  refine (Reg1.final5 (V2 m ρ) c).trans ?_
  show h1 (V2 m ρ c main_arg1) (V2 m ρ c main_v2) (rowOf (V2 m ρ c main_v0)) = _
  rw [V2_main_arg1, V2_main_v2, V2_main_v0]
theorem arr1_6 (c : Dev nD) : (dat1 (V2 m ρ) c).arrAt 6 cfg1.N
    = hw2 (m ((c : Thread nD τ).loc main_arg1)) (mm (m ((c : Thread nD τ).loc main_arg0)) (m ((c : Thread nD τ).loc main_arg2))) (m ((c : Thread nD τ).loc main_arg3)) (m ((c : Thread nD τ).loc main_arg4)) := by
  refine (Reg1.final6 (V2 m ρ) c).trans ?_
  show hw2 (V2 m ρ c main_arg1) (V2 m ρ c main_v2) (rowOf (V2 m ρ c main_v0)) (V2 m ρ c main_arg4) = _
  rw [V2_main_arg1, V2_main_v2, V2_main_v0, V2_main_arg4]

/-- `hw2`, as the third region finds it. -/
theorem V3_main_v3_2 (c : Dev nD) : (V3 m ρ c main_v3_2 : Mat 10000 128)
    = hw2 (m ((c : Thread nD τ).loc main_arg1)) (mm (m ((c : Thread nD τ).loc main_arg0)) (m ((c : Thread nD τ).loc main_arg2))) (m ((c : Thread nD τ).loc main_arg3)) (m ((c : Thread nD τ).loc main_arg4)) :=
  (W3_arr m ρ c 6).trans (arr1_6 m ρ c)

/-- The third region's first array: the second pre-activation of the arguments. -/
theorem arr2_3 (c : Dev nD) : (dat2 (V3 m ρ) c).arrAt 3 cfg2.N
    = net2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Reg2.final3 (V3 m ρ) c).trans ?_
  show pre2 (V3 m ρ c main_arg1) (V3 m ρ c main_v3_2) (rowOf (V3 m ρ c main_v1)) = _
  rw [V3_main_arg1, V3_main_v3_2, V3_main_v1]
  rfl
/-- Its second array: the row-wise log-softmax of that. -/
theorem arr2_4 (c : Dev nD) : (dat2 (V3 m ρ) c).arrAt 4 cfg2.N
    = logSoftmaxK (net2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (Reg2.final4 (V3 m ρ) c).trans ?_
  show logSoftmaxK (pre2 (V3 m ρ c main_arg1) (V3 m ρ c main_v3_2) (rowOf (V3 m ρ c main_v1))) = _
  rw [V3_main_arg1, V3_main_v3_2, V3_main_v1]
  rfl

/-! ## The run -/

/-- Every weakly fair execution of the kernel program terminates, nothing faulting, with its five results at the
    specification's functions of the six arguments, and the arguments as launched. -/
theorem run_spec : θ_run defs (onTc (τ := τ) (main (F := Ideal))) ⟨m, fun _ => 0, ρ⟩ (fun r => ∀ c : Dev nD,
      r.2.mem ((c.tc : Thread nD τ).loc main_v3_0) = pre1 (m ((c.tc : Thread nD τ).loc main_arg1)) (mm (m ((c.tc : Thread nD τ).loc main_arg0)) (m ((c.tc : Thread nD τ).loc main_arg2))) (m ((c.tc : Thread nD τ).loc main_arg3))
      ∧ r.2.mem ((c.tc : Thread nD τ).loc main_v4_0) = net2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_v3_1) = h1 (m ((c.tc : Thread nD τ).loc main_arg1)) (mm (m ((c.tc : Thread nD τ).loc main_arg0)) (m ((c.tc : Thread nD τ).loc main_arg2))) (m ((c.tc : Thread nD τ).loc main_arg3))
      ∧ r.2.mem ((c.tc : Thread nD τ).loc main_v4_1) = logSoftmaxK (net2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨h0, h1', h2, h3, h4, hrest⟩ := h c
    exact ⟨h0.trans (((W4_of_ne m ρ c main_v3_0 (by decide)).trans (W3_arr m ρ c 4)).trans (arr1_4 m ρ c)),
      h1'.trans ((W4_arr m ρ c 3).trans (arr2_3 m ρ c)),
      hrest.1,
      h3.trans (((W4_of_ne m ρ c main_v3_1 (by decide)).trans (W3_arr m ρ c 5)).trans (arr1_5 m ρ c)),
      h4.trans ((W4_arr m ρ c 4).trans (arr2_4 m ρ c)),
      hrest⟩)
    (run_results m ρ)

end Cert.KernelIdeal.KVal

end
-- ==== Proof.RefLsm.lean ====
/-
  The reference's row-wise log-softmax, as one function of the matrix it is applied to.

  The reference computes, for a `10000 × 128` matrix `P`: the maximum of each row (a reduction from `-∞`, then the
  maximum with `-∞` again), kept as a column and spread over the row; the differences `P - m`; the sum along each
  row of their exponentials; its logarithm, kept as a column and spread over the row; and `(P - m) - log S`.
-/
import proofs.«113547_g53876069761532_cont_9to1_m_356_27_alg».proof.Proof.Gen.ReferenceIdeal

noncomputable section

namespace Cert.ReferenceIdeal.RefLsm

open Cert.ReferenceIdeal Cert.ReferenceIdeal.Gen Idealize.ShloMosaic Idealize.ShloMosaic.TcCoe

variable {F : FTy → Type} [FloatOps F]

/-- Each row's maximum, spread over the row. -/
def rowMaxB (P : (⟨S10000x128, .f32⟩ : BufTy).Contents (Elt F)) : (⟨S10000x128, .f32⟩ : BufTy).Contents (Elt F) :=
  broadcastInDim S10000x128 ![0, 1] bcast_S10000x1_S10000x128_0_1 (broadcastInDim S10000x1 ![0] bcast_S10000_S10000x1_0 (maximumf (broadcastInDim S10000 ![] bcast_S_S10000 (constant S_ .f32 0xFF800000#32)) (Host.reduce FloatOps.maximumf P (constant S_ .f32 0xFF800000#32) reducesTo_S10000x128_S10000_d1 h_S_)))

/-- The row-wise log-softmax: `(P - m) - log (∑ exp (P - m))`. -/
def lsm (P : (⟨S10000x128, .f32⟩ : BufTy).Contents (Elt F)) : (⟨S10000x128, .f32⟩ : BufTy).Contents (Elt F) :=
  subf (subf P (rowMaxB P)) (broadcastInDim S10000x128 ![0, 1] bcast_S10000x1_S10000x128_0_1 (Host.log (broadcastInDim S10000x1 ![0] bcast_S10000_S10000x1_0 (Host.reduceAdd (Host.exp (subf P (rowMaxB P))) (constant S_ .f32 0x00000000#32) reducesTo_S10000x128_S10000_d1 h_S_))))

end Cert.ReferenceIdeal.RefLsm

end
-- ==== Proof.RefSpec.lean ====
/-
  The reference's terms are the specification.

  Each stage of the reference, as the run states it, is the corresponding stage of the specification, read
  entry by entry: a product with the standard dimension numbers is the matrix product; a bias vector
  spread first to one row and then down the rows is the vector added to every row; the maximum with a
  spread zero is the positive part; the row-wise reduction by the maximum from minus infinity (and the
  maximum with minus infinity once more) is the row's maximum; the row-wise sum from zero of the
  exponentials is the row's sum of exponentials; and a column kept and spread over the row reads, at every
  entry of the row, the row's one value.
-/
import proofs.«113547_g53876069761532_cont_9to1_m_356_27_alg».proof.Proof.RefLsm
import proofs.«113547_g53876069761532_cont_9to1_m_356_27_alg».proof.Proof.Spec
import proofs.«113547_g53876069761532_cont_9to1_m_356_27_alg».proof.Proof.LibPlain
import Idealize.ShloMosaic.Lib.Pipeline.Value
import Idealize.ShloMosaic.PureOps.Ideal.Laws
import Idealize.ShloMosaic.Lib.ValueIdx

noncomputable section

namespace Cert.ReferenceIdeal.RefSpec

open Cert.ReferenceIdeal Cert.ReferenceIdeal.Gen Idealize.ShloMosaic Idealize.ShloMosaic.TcCoe
open Cert.GcnSpec Idealize.ShloMosaic.ValueIdx

/-! ## The operations read at coordinates, over any extents -/

/-- A product with the standard dimension numbers is the matrix product. -/
theorem dotGeneral_eq_mm {M K N : ℕ} (d : DotDims ⟨2, ![M, K]⟩ ⟨2, ![K, N]⟩ ⟨2, ![M, N]⟩) (hd : d = DotDims.plain M K N)
    (prec : Option ContractPrecision) (A : FVec Ideal ⟨2, ![M, K]⟩ .f32) (B : FVec Ideal ⟨2, ![K, N]⟩ .f32) :
    Host.dotGeneral d prec A B = mm A B := by
  funext j
  obtain ⟨a, b, rfl⟩ : ∃ (a : Fin M) (b : Fin N), j = ix2 a b := ⟨j 0, j 1, eq_ix2 j⟩
  exact Cert.LibPlain.dotGeneral_apply d hd prec A B a b

/-- A vector made a one-row matrix and spread down the rows reads, at `(p, q)`, the vector's entry `q`. -/
theorem bias_apply {R C : ℕ} (h2 : (⟨2, ![1, C]⟩ : Shape).BroadcastsInDim ⟨2, ![R, C]⟩ (![0, 1] : Fin 2 → Fin 2))
    (h1 : (⟨1, ![C]⟩ : Shape).BroadcastsInDim ⟨2, ![1, C]⟩ (![1] : Fin 1 → Fin 2)) (b : (⟨1, ![C]⟩ : Shape).Idx → EReal)
    (p : Fin R) (q : Fin C) :
    broadcastInDim ⟨2, ![R, C]⟩ ![0, 1] h2 (broadcastInDim ⟨2, ![1, C]⟩ ![1] h1 b) (ix2 p q) = b (ix1 q) := by
  refine (broadcastInDim_apply _ h2 _ (ix2 p q) (ix2 ⟨0, Nat.one_pos⟩ q) fun a => ?_).trans
    (broadcastInDim_apply _ h1 b (ix2 ⟨0, Nat.one_pos⟩ q) (ix1 q) fun a => ?_)
  · match a with
    | ⟨0, _⟩ => show 0 = if (1 : ℕ) = 1 then 0 else p.val; rw [if_pos rfl]
    | ⟨1, _⟩ =>
      show q.val = if C = 1 then 0 else q.val
      split_ifs with hC
      · have := q.isLt; omega
      · rfl
  · match a with
    | ⟨0, _⟩ =>
      show q.val = if C = 1 then 0 else q.val
      split_ifs with hC
      · have := q.isLt; omega
      · rfl

/-- A scalar spread over an array reads the scalar at every index. -/
theorem scalar_apply {t : Shape} (h : (⟨0, ![]⟩ : Shape).BroadcastsInDim t (![] : Fin 0 → Fin t.rank))
    (y : (⟨0, ![]⟩ : Shape).Idx → EReal) (j : t.Idx) : broadcastInDim t ![] h y j = y ix0 :=
  broadcastInDim_apply _ h y j ix0 (fun a => a.elim0)

/-- The maximum with a spread zero is the positive part. -/
theorem max_zero_eq_relu {M N : ℕ} (h : (⟨0, ![]⟩ : Shape).BroadcastsInDim ⟨2, ![M, N]⟩ (![] : Fin 0 → Fin 2))
    (P : FVec Ideal ⟨2, ![M, N]⟩ .f32) :
    maximumf P (broadcastInDim ⟨2, ![M, N]⟩ ![] h (constant (F := Ideal) ⟨0, ![]⟩ .f32 0x00000000#32)) = relu P := by
  funext j
  show max (P j) (broadcastInDim ⟨2, ![M, N]⟩ ![] h (constant (F := Ideal) ⟨0, ![]⟩ .f32 0x00000000#32) j) = max (P j) 0
  rw [scalar_apply h _ j, constant_apply, Ideal.ofBits_zero_f32]

/-- A column spread over the rows' entries reads, at `(p, q)`, the column's entry `p`. -/
theorem spread_apply {R C : ℕ} (h2 : (⟨2, ![R, 1]⟩ : Shape).BroadcastsInDim ⟨2, ![R, C]⟩ (![0, 1] : Fin 2 → Fin 2))
    (w : (⟨2, ![R, 1]⟩ : Shape).Idx → EReal) (p : Fin R) (q : Fin C) :
    broadcastInDim ⟨2, ![R, C]⟩ ![0, 1] h2 w (ix2 p q) = w (ix2 p ⟨0, Nat.one_pos⟩) := by
  refine broadcastInDim_apply _ h2 w (ix2 p q) (ix2 p ⟨0, Nat.one_pos⟩) fun a => ?_
  match a with
  | ⟨0, _⟩ =>
    show p.val = if R = 1 then 0 else p.val
    split_ifs with hR
    · have := p.isLt; omega
    · rfl
  | ⟨1, _⟩ => show 0 = if (1 : ℕ) = 1 then 0 else q.val; rw [if_pos rfl]

/-- A vector kept as a column reads, at `(p, 0)`, the vector's entry `p`. -/
theorem keep_apply {R : ℕ} (h1 : (⟨1, ![R]⟩ : Shape).BroadcastsInDim ⟨2, ![R, 1]⟩ (![0] : Fin 1 → Fin 2))
    (v : (⟨1, ![R]⟩ : Shape).Idx → EReal) (p : Fin R) :
    broadcastInDim ⟨2, ![R, 1]⟩ ![0] h1 v (ix2 p ⟨0, Nat.one_pos⟩) = v (ix1 p) := by
  refine broadcastInDim_apply _ h1 v (ix2 p ⟨0, Nat.one_pos⟩) (ix1 p) fun a => ?_
  match a with
  | ⟨0, _⟩ =>
    show p.val = if R = 1 then 0 else p.val
    split_ifs with hR
    · have := p.isLt; omega
    · rfl

/-- Row `p` with the coordinate `k` put back on the reduced axis is `(p, k)`. -/
theorem lift_ix2 {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (⟨k.val, k.isLt⟩ : Fin b) := by
  funext c; apply Fin.ext
  fin_cases c <;> rfl

/-- The reduction by the maximum along each row, from minus infinity, is at row `p` the row's maximum. -/
theorem hostRowMax_apply {a b : ℕ} (P : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < (⟨0, ![]⟩ : Shape).numel) (p : Fin a) :
    Host.reduce FloatOps.maximumf P (constant (F := Ideal) ⟨0, ![]⟩ .f32 0xFF800000#32) h' hu (ix1 p) = rowMax P p := by
  rw [Host.reduce_eq_fold_single FloatOps.maximumf P _ h' h hu]
  show (Finset.univ : Finset (Fin b)).fold max (Ideal.ofBits .f32 0xFF800000#32) _ = _
  rw [Cert.LibPlain.ofBits_neg_inf_f32]
  exact congrArg (Finset.fold max ⊥ · Finset.univ) (funext fun k => congrArg P (lift_ix2 h p k))

/-- The sum along each row, from zero, is at row `p` the sum of the row's entries. -/
theorem hostRowSum_apply {a b : ℕ} (Y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < (⟨0, ![]⟩ : Shape).numel) (p : Fin a) :
    Host.reduceAdd Y (constant (F := Ideal) ⟨0, ![]⟩ .f32 0x00000000#32) h' hu (ix1 p) = ∑ k : Fin b, Y (ix2 p k) := by
  simp only [Host.reduceAdd, Ideal.hostReduceAdd_def]
  rw [Ideal.hostReduceAdd_single h' h, constant_apply, Ideal.ofBits_zero_f32, zero_add]
  exact Finset.sum_congr rfl fun k _ => congrArg Y (lift_ix2 h p k)

/-! ## The reference's stages -/

/-- A bias spread down the rows and added is the vector added to every row. -/
theorem addf_bias_eq_addRow {R C : ℕ} (h2 : (⟨2, ![1, C]⟩ : Shape).BroadcastsInDim ⟨2, ![R, C]⟩ (![0, 1] : Fin 2 → Fin 2))
    (h1 : (⟨1, ![C]⟩ : Shape).BroadcastsInDim ⟨2, ![1, C]⟩ (![1] : Fin 1 → Fin 2)) (A : FVec Ideal ⟨2, ![R, C]⟩ .f32)
    (b : FVec Ideal ⟨1, ![C]⟩ .f32) :
    addf A (broadcastInDim ⟨2, ![R, C]⟩ ![0, 1] h2 (broadcastInDim ⟨2, ![1, C]⟩ ![1] h1 b)) = addRow A b := by
  funext j
  obtain ⟨p, q, rfl⟩ : ∃ (p : Fin R) (q : Fin C), j = ix2 p q := ⟨j 0, j 1, eq_ix2 j⟩
  exact congrArg (A (ix2 p q) + ·) (bias_apply h2 h1 b p q)

/-- The first layer before its activation. -/
theorem pre1_eq (x0 : FVec Ideal S10000x256 .f32) (x1 : FVec Ideal S10000x10000 .f32) (x2 : FVec Ideal S256x256 .f32)
    (x3 : FVec Ideal S256 .f32) :
    addf (Host.dotGeneral dot_S10000x10000_S10000x256_S10000x256_1_0_0_1_n_n none x1 (Host.dotGeneral dot_S10000x256_S256x256_S10000x256_1_0_0_1_n_n none x0 x2)) (broadcastInDim S10000x256 ![0, 1] bcast_S1x256_S10000x256_0_1 (broadcastInDim S1x256 ![1] bcast_S256_S1x256_1 x3))
      = pre1 x1 (mm x0 x2) x3 := by
  rw [dotGeneral_eq_mm dot_S10000x256_S256x256_S10000x256_1_0_0_1_n_n rfl none x0 x2,
    dotGeneral_eq_mm dot_S10000x10000_S10000x256_S10000x256_1_0_0_1_n_n rfl none x1 (mm x0 x2)]
  exact addf_bias_eq_addRow bcast_S1x256_S10000x256_0_1 bcast_S256_S1x256_1 (mm x1 (mm x0 x2)) x3

/-- The first layer. -/
theorem h1_eq (x0 : FVec Ideal S10000x256 .f32) (x1 : FVec Ideal S10000x10000 .f32) (x2 : FVec Ideal S256x256 .f32)
    (x3 : FVec Ideal S256 .f32) :
    maximumf (addf (Host.dotGeneral dot_S10000x10000_S10000x256_S10000x256_1_0_0_1_n_n none x1 (Host.dotGeneral dot_S10000x256_S256x256_S10000x256_1_0_0_1_n_n none x0 x2)) (broadcastInDim S10000x256 ![0, 1] bcast_S1x256_S10000x256_0_1 (broadcastInDim S1x256 ![1] bcast_S256_S1x256_1 x3))) (broadcastInDim S10000x256 ![] bcast_S_S10000x256 (constant (F := Ideal) S_ .f32 0x00000000#32))
      = h1 x1 (mm x0 x2) x3 := by
  rw [pre1_eq x0 x1 x2 x3]
  exact max_zero_eq_relu bcast_S_S10000x256 (pre1 x1 (mm x0 x2) x3)

/-- The second layer before the log-softmax. -/
theorem net2_eq (x0 : FVec Ideal S10000x256 .f32) (x1 : FVec Ideal S10000x10000 .f32) (x2 : FVec Ideal S256x256 .f32)
    (x3 : FVec Ideal S256 .f32) (x4 : FVec Ideal S256x128 .f32) (x5 : FVec Ideal S128 .f32) :
    addf (Host.dotGeneral dot_S10000x10000_S10000x128_S10000x128_1_0_0_1_n_n none x1 (Host.dotGeneral dot_S10000x256_S256x128_S10000x128_1_0_0_1_n_n none (maximumf (addf (Host.dotGeneral dot_S10000x10000_S10000x256_S10000x256_1_0_0_1_n_n none x1 (Host.dotGeneral dot_S10000x256_S256x256_S10000x256_1_0_0_1_n_n none x0 x2)) (broadcastInDim S10000x256 ![0, 1] bcast_S1x256_S10000x256_0_1 (broadcastInDim S1x256 ![1] bcast_S256_S1x256_1 x3))) (broadcastInDim S10000x256 ![] bcast_S_S10000x256 (constant (F := Ideal) S_ .f32 0x00000000#32))) x4)) (broadcastInDim S10000x128 ![0, 1] bcast_S1x128_S10000x128_0_1 (broadcastInDim S1x128 ![1] bcast_S128_S1x128_1 x5))
      = net2 x0 x1 x2 x3 x4 x5 := by
  rw [h1_eq x0 x1 x2 x3,
    dotGeneral_eq_mm dot_S10000x256_S256x128_S10000x128_1_0_0_1_n_n rfl none (h1 x1 (mm x0 x2) x3) x4,
    dotGeneral_eq_mm dot_S10000x10000_S10000x128_S10000x128_1_0_0_1_n_n rfl none x1 (mm (h1 x1 (mm x0 x2) x3) x4)]
  exact addf_bias_eq_addRow bcast_S1x128_S10000x128_0_1 bcast_S128_S1x128_1 (mm x1 (mm (h1 x1 (mm x0 x2) x3) x4)) x5

/-! ## The row-wise log-softmax chain, over any extents -/

section Chain

variable {a b : ℕ}
  (hS : (⟨0, ![]⟩ : Shape).BroadcastsInDim ⟨1, ![a]⟩ (![] : Fin 0 → Fin 1))
  (h1 : (⟨1, ![a]⟩ : Shape).BroadcastsInDim ⟨2, ![a, 1]⟩ (![0] : Fin 1 → Fin 2))
  (h2 : (⟨2, ![a, 1]⟩ : Shape).BroadcastsInDim ⟨2, ![a, b]⟩ (![0, 1] : Fin 2 → Fin 2))
  (h' : (⟨2, ![a, b]⟩ : Shape).ReducesTo [(1 : Fin 2)] ⟨1, ![a]⟩) (h : (⟨2, ![a, b]⟩ : Shape).Reduces [(1 : Fin 2)] ⟨1, ![a]⟩)
  (hu : 0 < (⟨0, ![]⟩ : Shape).numel)

include h

/-- Each row's maximum (the reduction from minus infinity, then the maximum with minus infinity), kept as a
    column and spread over the row, reads the row's maximum at every entry of the row: the maximum of `⊥` and
    the fold of `max` from `⊥` is that fold. -/
theorem rowMaxSpread_eq (P : FVec Ideal ⟨2, ![a, b]⟩ .f32) :
    broadcastInDim ⟨2, ![a, b]⟩ ![0, 1] h2 (broadcastInDim ⟨2, ![a, 1]⟩ ![0] h1
      (maximumf (broadcastInDim ⟨1, ![a]⟩ ![] hS (constant (F := Ideal) ⟨0, ![]⟩ .f32 0xFF800000#32))
        (Host.reduce FloatOps.maximumf P (constant (F := Ideal) ⟨0, ![]⟩ .f32 0xFF800000#32) h' hu)))
      = fun j => rowMax P (j 0) := by
  funext j
  obtain ⟨p, q, rfl⟩ : ∃ (p : Fin a) (q : Fin b), j = ix2 p q := ⟨j 0, j 1, eq_ix2 j⟩
  refine (spread_apply h2 _ p q).trans ?_
  refine (keep_apply h1 _ p).trans ?_
  refine (maximumf_apply _ _ (ix1 p)).trans ?_
  rw [scalar_apply hS _ (ix1 p), constant_apply, Cert.LibPlain.ofBits_neg_inf_f32, hostRowMax_apply P h' h hu p]
  exact max_eq_right bot_le

/-- The logarithm of the row-wise sum of exponentials of a matrix `D`, kept as a column and spread over the
    row, reads at `(p, q)` the logarithm of row `p`'s sum of `exp`. -/
theorem logSum_apply (D : FVec Ideal ⟨2, ![a, b]⟩ .f32) (p : Fin a) (q : Fin b) :
    broadcastInDim ⟨2, ![a, b]⟩ ![0, 1] h2 (Host.log (broadcastInDim ⟨2, ![a, 1]⟩ ![0] h1
      (Host.reduceAdd (Host.exp D) (constant (F := Ideal) ⟨0, ![]⟩ .f32 0x00000000#32) h' hu))) (ix2 p q)
      = Ideal.log (∑ k : Fin b, Ideal.exp (D (ix2 p k))) := by
  refine (spread_apply h2 _ p q).trans ?_
  refine congrArg Ideal.log ?_
  refine (keep_apply h1 _ p).trans ?_
  exact hostRowSum_apply (Host.exp D) h' h hu p

/-- The whole chain is the row-wise log-softmax arranged `(a - m) - log S`. -/
theorem chain_eq (P : FVec Ideal ⟨2, ![a, b]⟩ .f32) (m : FVec Ideal ⟨2, ![a, b]⟩ .f32) (hm : m = fun j => rowMax P (j 0)) :
    subf (subf P m) (broadcastInDim ⟨2, ![a, b]⟩ ![0, 1] h2 (Host.log (broadcastInDim ⟨2, ![a, 1]⟩ ![0] h1
      (Host.reduceAdd (Host.exp (subf P m)) (constant (F := Ideal) ⟨0, ![]⟩ .f32 0x00000000#32) h' hu))))
      = logSoftmaxR P := by
  subst hm
  funext j
  obtain ⟨p, q, rfl⟩ : ∃ (p : Fin a) (q : Fin b), j = ix2 p q := ⟨j 0, j 1, eq_ix2 j⟩
  refine (subf_apply _ _ (ix2 p q)).trans ?_
  refine (congrArg₂ (· - ·) (subf_apply P _ (ix2 p q)) (logSum_apply h1 h2 h' h hu _ p q)).trans ?_
  rfl

end Chain

/-! ## The reference's log-softmax chain -/

/-- The reduction of a `10000 × 128` array along its rows names each row's index. -/
theorem reduces_rows : S10000x128.Reduces [1] S10000 := by decide

/-- The reference's spread row maximum reads the row's maximum at every entry of the row. -/
theorem rowMaxB_eq (P : FVec Ideal S10000x128 .f32) : RefLsm.rowMaxB (F := Ideal) P = fun j => rowMax P (j 0) := by
  unfold RefLsm.rowMaxB
  exact rowMaxSpread_eq bcast_S_S10000 bcast_S10000_S10000x1_0 bcast_S10000x1_S10000x128_0_1
    reducesTo_S10000x128_S10000_d1 reduces_rows h_S_ P

/-- The reference's log-softmax chain is the row-wise log-softmax arranged `(a - m) - log S`. -/
theorem lsm_eq (P : FVec Ideal S10000x128 .f32) : RefLsm.lsm (F := Ideal) P = logSoftmaxR P := by
  unfold RefLsm.lsm
  exact chain_eq bcast_S10000_S10000x1_0 bcast_S10000x1_S10000x128_0_1 reducesTo_S10000x128_S10000_d1 reduces_rows h_S_ P
    (RefLsm.rowMaxB (F := Ideal) P) (rowMaxB_eq P)

end Cert.ReferenceIdeal.RefSpec

end
-- ==== Proof.Finite.lean ====
/-
  Finiteness and the row-wise log-softmax.

  An extended real is "real" when it is neither infinity. Sums, products and positive parts of reals are real,
  so every entry of the network's second pre-activation is real once every entry of the six inputs is; and
  the inputs' entries are real because the precondition says, of each entry, that its absolute value is below
  plus infinity. For a nonempty row of reals the row's maximum m is real (it is one of the entries), every
  exp (a - m) is a positive real, their sum S is a positive real and log S is real; subtracting a real L is
  insensitive to the bracketing, a - (L + m) = (a - m) - L, which joins the two arrangements of the
  log-softmax.
-/
import proofs.«113547_g53876069761532_cont_9to1_m_356_27_alg».proof.Proof.Spec
import proofs.«113547_g53876069761532_cont_9to1_m_356_27_alg».proof.Pre_finite_inputs
import Idealize.ShloMosaic.Lib.ReduceAll
import Idealize.ShloMosaic.PureOps.Ideal.Laws

noncomputable section

namespace Cert.GcnSpec

open Idealize.ShloMosaic Idealize.ShloMosaic.ValueIdx

/-- An extended real that is a real number. -/
def IsReal (v : EReal) : Prop := v ≠ ⊥ ∧ v ≠ ⊤

/-- The image of a real number is real. -/
theorem isReal_coe (r : ℝ) : IsReal (r : EReal) := ⟨EReal.coe_ne_bot r, EReal.coe_ne_top r⟩

/-- A real extended real is the image of a real number. -/
theorem IsReal.exists_coe {v : EReal} (h : IsReal v) : ∃ r : ℝ, v = (r : EReal) := by
  induction v using EReal.rec with
  | bot => exact absurd rfl h.1
  | top => exact absurd rfl h.2
  | coe r => exact ⟨r, rfl⟩

theorem isReal_zero : IsReal (0 : EReal) := by rw [← EReal.coe_zero]; exact isReal_coe 0

/-- The sum of two reals is real. -/
theorem IsReal.add {a b : EReal} (ha : IsReal a) (hb : IsReal b) : IsReal (a + b) := by
  obtain ⟨r, rfl⟩ := ha.exists_coe
  obtain ⟨s, rfl⟩ := hb.exists_coe
  rw [← EReal.coe_add]; exact isReal_coe _

/-- The product of two reals is real. -/
theorem IsReal.mul {a b : EReal} (ha : IsReal a) (hb : IsReal b) : IsReal (a * b) := by
  obtain ⟨r, rfl⟩ := ha.exists_coe
  obtain ⟨s, rfl⟩ := hb.exists_coe
  rw [← EReal.coe_mul]; exact isReal_coe _

/-- The difference of two reals is real. -/
theorem IsReal.sub {a b : EReal} (ha : IsReal a) (hb : IsReal b) : IsReal (a - b) := by
  obtain ⟨r, rfl⟩ := ha.exists_coe
  obtain ⟨s, rfl⟩ := hb.exists_coe
  rw [← EReal.coe_sub]; exact isReal_coe _

/-- The greater of two reals is one of them, so real. -/
theorem IsReal.max {a b : EReal} (ha : IsReal a) (hb : IsReal b) : IsReal (max a b) := by
  rcases max_choice a b with h | h <;> rw [h] <;> assumption

/-- A finite sum of reals is real. -/
theorem isReal_sum {ι : Type} (s : Finset ι) (f : ι → EReal) (h : ∀ k ∈ s, IsReal (f k)) : IsReal (∑ k ∈ s, f k) :=
  Finset.sum_induction f IsReal (fun _ _ => IsReal.add) isReal_zero h

/-! ## The layers keep every entry real -/

variable {M K N : Nat}

theorem mm_real {A : Mat M K} {B : Mat K N} (hA : ∀ j, IsReal (A j)) (hB : ∀ j, IsReal (B j)) : ∀ j, IsReal (mm A B j) :=
  fun _ => isReal_sum _ _ fun _ _ => (hA _).mul (hB _)

theorem addRow_real {A : Mat M N} {b : Vc N} (hA : ∀ j, IsReal (A j)) (hb : ∀ j, IsReal (b j)) : ∀ j, IsReal (addRow A b j) :=
  fun _ => (hA _).add (hb _)

theorem relu_real {A : Mat M N} (hA : ∀ j, IsReal (A j)) : ∀ j, IsReal (relu A j) :=
  fun _ => (hA _).max isReal_zero

/-- Every entry of the second pre-activation is real when every entry of the six inputs is. -/
theorem net2_real {x : Mat 10000 256} {adj : Mat 10000 10000} {W1 : Mat 256 256} {b1 : Vc 256} {W2 : Mat 256 128} {b2 : Vc 128}
    (hx : ∀ i, IsReal (x i)) (hadj : ∀ i, IsReal (adj i)) (hW1 : ∀ i, IsReal (W1 i)) (hb1 : ∀ i, IsReal (b1 i))
    (hW2 : ∀ i, IsReal (W2 i)) (hb2 : ∀ i, IsReal (b2 i)) : ∀ j, IsReal (net2 x adj W1 b1 W2 b2 j) :=
  addRow_real (mm_real hadj (mm_real (relu_real (addRow_real (mm_real hadj (mm_real hx hW1)) hb1)) hW2)) hb2

/-! ## The row-wise log-softmax of a matrix of reals -/

/-- The fold of `max` from `⊥` over a nonempty finite family of reals is real: it is one of them. -/
theorem isReal_fold_max {ι : Type} (f : ι → EReal) {s : Finset ι} (hs : s.Nonempty) :
    (∀ k ∈ s, IsReal (f k)) → IsReal (s.fold max ⊥ f) := by
  induction hs using Finset.Nonempty.cons_induction with
  | singleton a =>
    intro h
    rw [Finset.fold_singleton, max_bot_right]
    exact h a (Finset.mem_singleton_self a)
  | cons a s ha hs ih =>
    intro h
    rw [Finset.fold_cons]
    exact (h a (Finset.mem_cons_self a s)).max (ih fun k hk => h k (Finset.mem_cons.2 (Or.inr hk)))

/-- A nonempty finite sum of positive reals is a positive real. -/
theorem pos_real_sum {ι : Type} (g : ι → EReal) {s : Finset ι} (hs : s.Nonempty) :
    (∀ k ∈ s, ∃ r : ℝ, 0 < r ∧ g k = (r : EReal)) → ∃ r : ℝ, 0 < r ∧ ∑ k ∈ s, g k = (r : EReal) := by
  induction hs using Finset.Nonempty.cons_induction with
  | singleton a =>
    intro h
    rw [Finset.sum_singleton]
    exact h a (Finset.mem_singleton_self a)
  | cons a s ha hs ih =>
    intro h
    obtain ⟨r, hr, er⟩ := h a (Finset.mem_cons_self a s)
    obtain ⟨t, ht, et⟩ := ih fun k hk => h k (Finset.mem_cons.2 (Or.inr hk))
    refine ⟨r + t, add_pos hr ht, ?_⟩
    rw [Finset.sum_cons, er, et, EReal.coe_add]

/-- The maximum of a nonempty row of reals is real. -/
theorem rowMax_real (hN : 0 < N) (A : Mat M N) (hA : ∀ j, IsReal (A j)) (i : Fin M) : IsReal (rowMax A i) :=
  isReal_fold_max _ ⟨⟨0, hN⟩, Finset.mem_univ _⟩ fun _ _ => hA _

/-- Over a nonempty row of reals the sum of `exp (a - m)` is a positive real. -/
theorem expSum_pos_real (hN : 0 < N) (A : Mat M N) (hA : ∀ j, IsReal (A j)) (i : Fin M) :
    ∃ r : ℝ, 0 < r ∧ expSum A i = (r : EReal) := by
  refine pos_real_sum _ ⟨⟨0, hN⟩, Finset.mem_univ _⟩ fun k _ => ?_
  obtain ⟨d, hd⟩ := ((hA (ix2 i k)).sub (rowMax_real hN A hA i)).exists_coe
  exact ⟨Real.exp d, Real.exp_pos d, by rw [hd, Ideal.exp_coe]⟩

/-- The logarithm of that sum is real. -/
theorem log_expSum_real (hN : 0 < N) (A : Mat M N) (hA : ∀ j, IsReal (A j)) (i : Fin M) :
    IsReal (Ideal.log (expSum A i)) := by
  obtain ⟨r, hr, er⟩ := expSum_pos_real hN A hA i
  rw [er, Ideal.log_coe, if_neg (not_le.2 hr)]
  exact isReal_coe _

/-- Subtracting a real `L` commutes with the bracketing, for all extended reals `a` and `m`:
    `-(L + m) = -L - m` needs only that `L` is neither infinity. -/
theorem sub_add_real (a m L : EReal) (hL : IsReal L) : a - (L + m) = (a - m) - L := by
  simp only [sub_eq_add_neg]
  rw [EReal.neg_add (Or.inl hL.1) (Or.inl hL.2), sub_eq_add_neg, add_comm (-L) (-m), add_assoc]

/-- On a matrix of reals with nonempty rows the two arrangements of the row-wise log-softmax agree. -/
theorem logSoftmax_eq {M N : Nat} (hN : 0 < N) (A : Mat M N) (hA : ∀ j, IsReal (A j)) : logSoftmaxK A = logSoftmaxR A := by
  funext j
  exact sub_add_real _ _ _ (log_expSum_real hN A hA (j 0))

/-! ## The precondition: every entry of every input is real -/

/-- The bit pattern `0x7F800000` of a 32-bit float denotes plus infinity. -/
theorem ofBits_inf : Ideal.ofBits .f32 0x7F800000#32 = (⊤ : EReal) := by
  simp [Ideal.ofBits, Ideal.ieee]

/-- An extended real whose absolute value `max v (-v)` compares below plus infinity is real:
    `v < ⊤` excludes `⊤`, and `-v < ⊤` excludes `⊥`. -/
theorem isReal_of_abs_lt (v : EReal) (h : Ideal.cmp .olt (max v (-v)) (Ideal.ofBits .f32 0x7F800000#32) = 1#1) : IsReal v := by
  rw [ofBits_inf] at h
  have hlt : max v (-v) < ⊤ := by
    by_contra hn
    simp [Ideal.cmp, hn] at h
  obtain ⟨h1, h2⟩ := max_lt_iff.1 hlt
  refine ⟨fun e => ?_, fun e => ?_⟩
  · rw [e, EReal.neg_bot] at h2; exact lt_irrefl _ h2
  · rw [e] at h1; exact lt_irrefl _ h1

/-- The precondition read back: each of its six conjuncts is an "all entries" of the comparison
    `|v| < +inf`, so every entry of every input is real. -/
theorem real_of_pre [Cert.Pre_finite_inputs.Facts] (x : Mat 10000 256) (adj : Mat 10000 10000) (W1 : Mat 256 256) (b1 : Vc 256)
    (W2 : Mat 256 128) (b2 : Vc 128)
    (h : Cert.Pre_finite_inputs.fn (F := Ideal) x adj W1 b1 W2 b2 = fun _ => 1#1) :
    (∀ i, IsReal (x i)) ∧ (∀ i, IsReal (adj i)) ∧ (∀ i, IsReal (W1 i)) ∧ (∀ i, IsReal (b1 i)) ∧ (∀ i, IsReal (W2 i)) ∧
      (∀ i, IsReal (b2 i)) := by
  -- the rank-0 result has exactly one index
  haveI : Subsingleton Cert.Pre_finite_inputs.S_.Idx := ⟨fun a b => funext fun d => d.elim0⟩
  have e := congrFun h ValueIdx.ix0
  dsimp only [Cert.Pre_finite_inputs.fn, Cert.Pre_finite_inputs.fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨fun i => isReal_of_abs_lt _ (Host.reduce_andi_all _ _ _ _ _ e1 i),
    fun i => isReal_of_abs_lt _ (Host.reduce_andi_all _ _ _ _ _ e2 i),
    fun i => isReal_of_abs_lt _ (Host.reduce_andi_all _ _ _ _ _ e3 i),
    fun i => isReal_of_abs_lt _ (Host.reduce_andi_all _ _ _ _ _ e4 i),
    fun i => isReal_of_abs_lt _ (Host.reduce_andi_all _ _ _ _ _ e5 i),
    fun i => isReal_of_abs_lt _ (Host.reduce_andi_all _ _ _ _ _ e6 i)⟩

/-- Under the precondition the two arrangements of the log-softmax of the network's second
    pre-activation agree: its 128-entry rows are nonempty and all its entries are real. -/
theorem logSoftmax_net2 [Cert.Pre_finite_inputs.Facts] (x : Mat 10000 256) (adj : Mat 10000 10000) (W1 : Mat 256 256) (b1 : Vc 256)
    (W2 : Mat 256 128) (b2 : Vc 128)
    (h : Cert.Pre_finite_inputs.fn (F := Ideal) x adj W1 b1 W2 b2 = fun _ => 1#1) :
    logSoftmaxK (net2 x adj W1 b1 W2 b2) = logSoftmaxR (net2 x adj W1 b1 W2 b2) := by
  obtain ⟨hx, hadj, hW1, hb1, hW2, hb2⟩ := real_of_pre x adj W1 b1 W2 b2 h
  exact logSoftmax_eq (by decide) _ (net2_real hx hadj hW1 hb1 hW2 hb2)

end Cert.GcnSpec

end
-- ==== Proof.lean ====
/- The proof of `Cert.Claim` for a two-layer graph convolution with a row-wise log-softmax, against its jnp reference.

   Both programs compute, from `x`, the dense adjacency matrix `adj`, `W1`, `b1`, `W2`, `b2`:
     pre1 = adj · (x · W1) + b1,   h1 = max(pre1, 0),   pre2 = adj · (h1 · W2) + b2,   out = log_softmax(pre2) by rows,
   and return (pre1, pre2, x, h1, out). The kernel does it in three pipelined regions — `x · W1` whole; then, 400
   adjacency rows at a time, pre1, h1 and `h1 · W2`; then, 400 rows at a time, pre2 and its log-softmax — with its
   matrix products on operands rounded to a shorter float format, which at the extended reals is the identity.
   At the extended reals the two programs differ in ONE place: the kernel subtracts `log S + m` from `pre2` where the
   reference subtracts `m` and then `log S` (`m` the row's maximum, `S` the row's sum of `exp (pre2 - m)`). The two
   agree when `log S` is a real number, which holds when every entry of `pre2` is — and that follows from the
   precondition (every input finite), since sums, products and maxima of real numbers are real.

   Modules: Spec (the mathematics, for any number of adjacency rows), SpecRows (a row of each layer reads the same row
   of the adjacency operand), Finite (the precondition makes every entry real; the two log-softmax arrangements agree
   on real matrices), Payload (each store of the three bodies as a specification function of the loaded blocks),
   Reg0 / Reg1 / Reg2 (each region's output arrays as whole-array functions of what the region finds), KRun and KChain
   (the kernel's run with every result at its function of the arguments), RefLsm / RefRun / RefSpec (the reference's run,
   and its four result terms as the same functions). The frames of the two kernel programs are the generated ones;
   the reference's frame is its run with the results dropped; nothing was rewritten by the idealization, so
   `preserves` asks nothing. -/
import proofs.«113547_g53876069761532_cont_9to1_m_356_27_alg».proof.Defs
import proofs.«113547_g53876069761532_cont_9to1_m_356_27_alg».proof.Proof.Gen.Kernel
import proofs.«113547_g53876069761532_cont_9to1_m_356_27_alg».proof.Proof.Gen.Kernel.Frame
import proofs.«113547_g53876069761532_cont_9to1_m_356_27_alg».proof.Proof.Gen.KernelIdeal
import proofs.«113547_g53876069761532_cont_9to1_m_356_27_alg».proof.Proof.Gen.KernelIdeal.Frame
import proofs.«113547_g53876069761532_cont_9to1_m_356_27_alg».proof.Proof.Gen.ReferenceIdeal
import proofs.«113547_g53876069761532_cont_9to1_m_356_27_alg».proof.Proof.Gen.Pre_finite_inputs
import proofs.«113547_g53876069761532_cont_9to1_m_356_27_alg».proof.Proof.KChain
import proofs.«113547_g53876069761532_cont_9to1_m_356_27_alg».proof.Proof.RefRun
import proofs.«113547_g53876069761532_cont_9to1_m_356_27_alg».proof.Proof.RefSpec
import proofs.«113547_g53876069761532_cont_9to1_m_356_27_alg».proof.Proof.Finite
import Idealize.ShloMosaic.Adequacy
import Idealize.ShloMosaic.Init

noncomputable section

namespace Cert.Proof

open Idealize.ShloMosaic Idealize.SL.Sem Cert.GcnSpec

/-- The word-level kernel runs and keeps its arguments: the generated frame. -/
theorem frame_k : Cert.frame_Kernel := fun m ρ _ => Cert.Kernel.Gen.frame m ρ
/-- The idealized kernel likewise. -/
theorem frame_ki : Cert.frame_KernelIdeal := fun m ρ _ => Cert.KernelIdeal.Gen.frame m ρ
/-- The reference runs and keeps its arguments: its run, the results dropped. -/
theorem frame_ri : Cert.frame_ReferenceIdeal := fun m ρ _ =>
  (θ_run Cert.ReferenceIdeal.defs _ _).mono (fun _ h c => (h c).2.2.2.2.2) (Cert.ReferenceIdeal.ValueP.run (F := Ideal) m ρ)

/-- From memories agreeing on the six arguments, both programs end with the same five results: four of them are
    the same function of the arguments term for term, and the log-softmax's two arrangements agree because the
    precondition makes every entry of `pre2` a real number. -/
theorem algebraic : Cert.algebraic_KernelIdeal_ReferenceIdeal := by
  intro m ρ m' ρ' hpre hagree
  refine ⟨_, _, _, _, _, Cert.KernelIdeal.KVal.run_spec m ρ, ?_⟩
  refine (θ_run Cert.ReferenceIdeal.defs _ _).mono (fun r h c => ?_) (Cert.ReferenceIdeal.ValueP.run (F := Ideal) m' ρ')
  obtain ⟨h0, h1, h2, h3, h4, hrest⟩ := h c
  obtain ⟨a0, a1, a2, a3, a4, a5⟩ := hagree c
  refine ⟨?_, ?_, ?_, ?_, ?_, hrest⟩
  · rw [h0, Cert.ReferenceIdeal.RefSpec.pre1_eq, a0, a1, a2, a3]
  · rw [h1, Cert.ReferenceIdeal.RefSpec.net2_eq, a0, a1, a2, a3, a4, a5]
  · rw [h2, a0]
  · rw [h3, Cert.ReferenceIdeal.RefSpec.h1_eq, a0, a1, a2, a3]
  · rw [h4, Cert.ReferenceIdeal.RefSpec.net2_eq, Cert.ReferenceIdeal.RefSpec.lsm_eq, a0, a1, a2, a3, a4, a5]
    exact (Cert.GcnSpec.logSoftmax_net2 _ _ _ _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
